-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S4096x64 .f32) (main_arg5 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x4096x4096 .f32) (main_arg1 : FVec F S4096x4096 .f32) (main_arg2 : FVec F S4096 .f32) (main_arg3 : FVec F S64x4096 .f32) (main_arg4 : FVec F S4096x64 .f32) (main_arg5 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S16384x4096 : Shape := ⟨2, ![16384, 4096]⟩
abbrev S1x4096 : Shape := ⟨2, ![1, 4096]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩

abbrev nBuf : Space → Nat
  | .hbm => 14
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S16384x4096, .f32⟩
  | .hbm, ⟨7, _⟩ => ⟨S1x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S16384x4096, .f32⟩
  | .hbm, ⟨13, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x4096_S16384x4096 : S4x4096x4096.ShapeCasts S16384x4096
  shapeCasts_S4096_S1x4096 : S4096.ShapeCasts S1x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S16384x4096_S4x4096x4096 : S16384x4096.ShapeCasts S4x4096x4096
  dot_S4096x64_S64x4096_S4096x4096_1_0_0_1_n_n_wf : DotDims.WF S4096x64 S64x4096 S4096x4096 [1] [0] [0] [1] [] []
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x4096.size a ≤ S4096x4096.size a
  hwx0_2 : ∀ i : grid0.Coords, EltTy.bits .bf16 = 32 ∨ (Rect.block (s := S4096x4096) S4096x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S1x1x4096 : Shape := ⟨3, ![1, 1, 4096]⟩
abbrev S524288x128 : Shape := ⟨2, ![524288, 128]⟩
abbrev S_ : Shape := ⟨0, ![]⟩
abbrev S524288 : Shape := ⟨1, ![524288]⟩
abbrev S524288x1 : Shape := ⟨2, ![524288, 1]⟩
abbrev S4x4096x64 : Shape := ⟨3, ![4, 4096, 64]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S524288x128, .f32⟩
  | .hbm, ⟨10, _⟩ => ⟨S524288x128, .f32⟩
  | .hbm, ⟨11, _⟩ => ⟨S_, .f32⟩
  | .hbm, ⟨12, _⟩ => ⟨S524288, .f32⟩
  | .hbm, ⟨13, _⟩ => ⟨S524288x1, .f32⟩
  | .hbm, ⟨14, _⟩ => ⟨S_, .f32⟩
  | .hbm, ⟨15, _⟩ => ⟨S_, .f32⟩
  | .hbm, ⟨16, _⟩ => ⟨S524288x1, .f32⟩
  | .hbm, ⟨17, _⟩ => ⟨S524288x1, .f32⟩
  | .hbm, ⟨18, _⟩ => ⟨S_, .f32⟩
  | .hbm, ⟨19, _⟩ => ⟨S524288x1, .f32⟩
  | .hbm, ⟨20, _⟩ => ⟨S524288x1, .f32⟩
  | .hbm, ⟨21, _⟩ => ⟨S_, .f32⟩
  | .hbm, ⟨22, _⟩ => ⟨S524288x1, .f32⟩
  | .hbm, ⟨23, _⟩ => ⟨S524288x1, .f32⟩
  | .hbm, ⟨24, _⟩ => ⟨S524288x128, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S524288x128, .f32⟩
  | .hbm, ⟨31, _⟩ => ⟨S524288x128, .f32⟩
  | .hbm, ⟨32, _⟩ => ⟨S_, .f32⟩
  | .hbm, ⟨33, _⟩ => ⟨S524288x128, .f32⟩
  | .hbm, ⟨34, _⟩ => ⟨S524288x128, .f32⟩
  | .hbm, ⟨35, _⟩ => ⟨S524288x128, .f32⟩
  | .hbm, ⟨36, _⟩ => ⟨S524288x128, .f32⟩
  | .hbm, ⟨37, _⟩ => ⟨S4x4096x4096, .f32⟩
  | .hbm, ⟨38, _⟩ => ⟨S4x4096x4096, .f32⟩
  | .hbm, ⟨39, _⟩ => ⟨S4x4096x64, .f32⟩
  | .hbm, ⟨40, _⟩ => ⟨S4x4096x4096, .f32⟩
  | .hbm, ⟨41, _⟩ => ⟨S4x4096x4096, .f32⟩
  | .hbm, ⟨42, _⟩ => ⟨S1x1x4096, .f32⟩
  | .hbm, ⟨43, _⟩ => ⟨S4x4096x4096, .f32⟩
  | .hbm, ⟨44, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  shapeCasts_S4x4096x4096_S524288x128 : S4x4096x4096.ShapeCasts S524288x128
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  bcast_S_S524288x128 : S_.BroadcastsInDim S524288x128 (![] : Fin 0 → Fin S524288x128.rank)
  shapeCasts_S524288x128_S4x4096x4096 : S524288x128.ShapeCasts S4x4096x4096
  dot_S4x4096x4096_S4096x4096_S4x4096x4096_2_1_01_0_n_n_wf : DotDims.WF S4x4096x4096 S4096x4096 S4x4096x4096 [2] [1] [0, 1] [0] [] []
  dot_S4x4096x4096_S64x4096_S4x4096x64_2_1_01_0_n_n_wf : DotDims.WF S4x4096x4096 S64x4096 S4x4096x64 [2] [1] [0, 1] [0] [] []
  dot_S4x4096x64_S4096x64_S4x4096x4096_2_1_01_0_n_n_wf : DotDims.WF S4x4096x64 S4096x64 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf
def dot_S4x4096x64_S4096x64_S4x4096x4096_2_1_01_0_n_n : DotDims S4x4096x64 S4096x64 S4x4096x4096 where
  lhsContracting := [2]
  rhsContracting := [1]
  lhsNonContracting := [0, 1]
  rhsNonContracting := [0]
  lhsBatch := []
  rhsBatch := []
  wf := dot_S4x4096x64_S4096x64_S4x4096x4096_2_1_01_0_n_n_wf

class Facts : Prop extends Facts₀ where

variable [Facts]
-- ==== Proof.Spec.lean ====
/-
  The mathematics of this certificate, stated once over the extended reals, with no program in sight.

  A row of 4096 activations is scaled entry by entry (`x · s`) and cut into 32 blocks of 128 consecutive entries. Each
  block is quantized on its own: with `a` the largest magnitude in the block, the step is `t = min (max ε a / 6) 448`,
  and an entry `v` of the block becomes `clip (round (v / t)) (-6) 6 · t` (rounding to nearest, ties to even). The
  quantized row `q` is then sent through a linear map with a low-rank correction and a bias. The two programs
  arrange that last step differently:

    • one multiplies by the corrected weight:   `∑ d, q d · (w o d + ∑ k, B o k · A k d) + bias o`,
    • the other adds the correction afterwards: `∑ d, q d · w o d + ∑ k, (∑ d, q d · A k d) · B o k + bias o`.

  Over the reals these are one number (distribute `q d` over the inner sum, exchange the two sums). Over the extended
  reals distributivity fails at the infinities, so the law is used where every entry is a real: the inputs by
  hypothesis, the quantized entries because a clipped value times a real step is real.

  Float literals stay as the extended reals their bit patterns denote (`Ideal.ofBits`): the same pattern stands on
  both sides and is never evaluated here.
-/
import Idealize.ShloMosaic.PureOps.Ideal
import Idealize.ShloMosaic.Lib.ValueIdx

noncomputable section

namespace Cert.BlockQuant

open Idealize.ShloMosaic Idealize.ShloMosaic.ValueIdx

/-- The activations `[4, 4096, 4096]`, a weight `[4096, 4096]`, a vector `[4096]`, the two low-rank factors. -/
abbrev Sact : Shape := ⟨3, ![4, 4096, 4096]⟩
abbrev Ssq : Shape := ⟨2, ![4096, 4096]⟩
abbrev Svec : Shape := ⟨1, ![4096]⟩
abbrev Sdown : Shape := ⟨2, ![64, 4096]⟩
abbrev Sup : Shape := ⟨2, ![4096, 64]⟩

/-- The largest of 128 extended reals, as the fold of `max` from `-∞`. -/
def blockMax (f : Fin 128 → EReal) : EReal :=
  (Finset.univ : Finset (Fin 128)).fold max (Ideal.ofBits .f32 0xFF800000#32) f

/-- The quantization step of a block whose largest magnitude is `a`: `min (max ε a / 6) 448`. -/
def stepOf (a : EReal) : EReal :=
  min (Ideal.div (max (Ideal.ofBits .f32 0x2B8CBCCC#32) a) (Ideal.ofBits .f32 0x40C00000#32))
    (Ideal.ofBits .f32 0x43E00000#32)

/-- An entry `v` put on the grid of step `t`: `clip (round (v / t)) (-6) 6 · t`, ties to even. -/
def onGrid (v t : EReal) : EReal :=
  min (Ideal.ofBits .f32 0x40C00000#32)
    (max (Ideal.ofBits .f32 0xC0C00000#32) (Ideal.liftRound Ideal.roundHalfEven (Ideal.div v t))) * t

/-- Entry `l` of block `g` of a row of 4096: position `128 g + l`. -/
def lane (g : Fin 32) (l : Fin 128) : Fin 4096 := ⟨g.val * 128 + l.val, by omega⟩

/-- The block a position lies in. -/
def blockOf (d : Fin 4096) : Fin 32 := ⟨d.val / 128, by omega⟩

/-- The scaled activation at `(b, r, d)`. -/
def scaled (x : Sact.Idx → EReal) (s : Svec.Idx → EReal) (b : Fin 4) (r : Fin 4096) (d : Fin 4096) : EReal :=
  x (ix3 b r d) * s (ix1 d)

/-- The step of block `g` of row `(b, r)`: from the largest `|x · s|` over the block. -/
def stepAt (x : Sact.Idx → EReal) (s : Svec.Idx → EReal) (b : Fin 4) (r : Fin 4096) (g : Fin 32) : EReal :=
  stepOf (blockMax fun l => max (scaled x s b r (lane g l)) (-(scaled x s b r (lane g l))))

/-- The quantized activation at `(b, r, d)`. -/
def quantized (x : Sact.Idx → EReal) (s : Svec.Idx → EReal) (b : Fin 4) (r : Fin 4096) (d : Fin 4096) : EReal :=
  onGrid (scaled x s b r d) (stepAt x s b r (blockOf d))

/-- The result with the correction added AFTER the base product (the reference's arrangement). -/
def corrected (x : Sact.Idx → EReal) (w : Ssq.Idx → EReal) (s : Svec.Idx → EReal) (A : Sdown.Idx → EReal)
    (B : Sup.Idx → EReal) (bias : Svec.Idx → EReal) (b : Fin 4) (r : Fin 4096) (o : Fin 4096) : EReal :=
  ((∑ d : Fin 4096, quantized x s b r d * w (ix2 o d))
    + ∑ k : Fin 64, (∑ d : Fin 4096, quantized x s b r d * A (ix2 k d)) * B (ix2 o k)) + bias (ix1 o)

/-- The result with the correction folded INTO the weight first (the kernel's arrangement). -/
def folded (x : Sact.Idx → EReal) (w : Ssq.Idx → EReal) (s : Svec.Idx → EReal) (A : Sdown.Idx → EReal)
    (B : Sup.Idx → EReal) (bias : Svec.Idx → EReal) (b : Fin 4) (r : Fin 4096) (o : Fin 4096) : EReal :=
  (∑ d : Fin 4096, quantized x s b r d * (w (ix2 o d) + ∑ k : Fin 64, B (ix2 o k) * A (ix2 k d))) + bias (ix1 o)

end Cert.BlockQuant

end
-- ==== Proof.Rows.lean ====
/-
  Quantizing ONE row, with no array around it.

  A row of 4096 extended reals is cut into 32 blocks of 128 consecutive entries; block `g`'s step comes from the largest
  magnitude among its 128 entries, and entry `d` is put on the grid of the step of the block it lies in. Both programs
  quantize rows this way — one reads the row out of a `[256, 4096]` tile, the other out of the `[4, 4096, 4096]`
  array viewed as blocks — so each side only has to say which row it feeds in.
-/
import proofs.«108394_j49211735277854_2_alg».proof.Proof.Spec

noncomputable section

namespace Cert.BlockQuant

open Idealize.ShloMosaic Idealize.ShloMosaic.ValueIdx

/-- The step of block `g` of a row: from the largest magnitude `max v (-v)` over the block's 128 entries. -/
def rowStep (row : Fin 4096 → EReal) (g : Fin 32) : EReal :=
  stepOf (blockMax fun l => max (row (lane g l)) (-(row (lane g l))))

/-- Entry `d` of the quantized row. -/
def rowQuant (row : Fin 4096 → EReal) (d : Fin 4096) : EReal :=
  onGrid (row d) (rowStep row (blockOf d))

/-- The array's quantized entry is its row's. -/
theorem quantized_eq_rowQuant (x : Sact.Idx → EReal) (s : Svec.Idx → EReal) (b : Fin 4) (r : Fin 4096) (d : Fin 4096) :
    quantized x s b r d = rowQuant (scaled x s b r) d := rfl

/-- A position is entry `d mod 128` of its block. -/
theorem lane_blockOf (d : Fin 4096) : lane (blockOf d) ⟨d.val % 128, Nat.mod_lt _ (by decide)⟩ = d :=
  Fin.ext (by show d.val / 128 * 128 + d.val % 128 = d.val; omega)

/-- The block of entry `l` of block `g` is `g`. -/
theorem blockOf_lane (g : Fin 32) (l : Fin 128) : blockOf (lane g l) = g :=
  Fin.ext (by show (g.val * 128 + l.val) / 128 = g.val; have := l.isLt; omega)

end Cert.BlockQuant

end
-- ==== Proof.KernelPayload.lean ====
/-
  The kernel body's arithmetic, read at one index.

  The one value the body stores is computed from four loaded blocks: the activation tile `x0` of shape
  `[256, 4096]`, the per-column factor `x1` of shape `[1, 4096]`, the weight `x2` of shape `[4096, 4096]` and the
  bias `x3` of shape `[1, 4096]`. Row `p` of the tile is scaled entry by entry, `x0 p d · x1 0 d`, viewed as 32
  blocks of 128 consecutive entries, and quantized block by block: the step of a block comes from its largest
  magnitude, every entry of the block is put on the grid of that step. The quantized row is viewed flat again and
  contracted with row `o` of the weight; the bias is added last.

  The computation is cut into four pieces over variable arrays — the scaled row in blocks, the steps, the entries on
  their grids, the contraction — each read at an index by its own lemma; the stored value is their composition, and
  at `(p, o)` it is `∑ d, q d · x2 o d + x3 0 o` with `q` the quantized row.
-/
import proofs.«108394_j49211735277854_2_alg».proof.Proof.Gen.KernelIdeal.Skeleton
import proofs.«108394_j49211735277854_2_alg».proof.Proof.Rows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Facts₀ Cert.BlockQuant

variable [Facts]

/-! ### The scaled row, in blocks -/

/-- The tile times the broadcast factor, viewed as `[256, 32, 128]`. -/
def scaledBlk (x0 : FVec Ideal S256x4096 .f32) (x1 : FVec Ideal S1x4096 .f32) : FVec Ideal S256x32x128 .f32 :=
  shapeCast S256x32x128
    (mulf (shapeCast S256x4096 x0 shapeCasts_S256x4096_S256x4096)
      (broadcastTo S256x4096 (shapeCast S1x4096 x1 shapeCasts_S1x4096_S1x4096) broadcasts_S1x4096_S256x4096))
    shapeCasts_S256x4096_S256x32x128

/-- Entry `l` of block `g` of row `p` is the product at position `128 g + l`. -/
theorem scaledBlk_apply (x0 : FVec Ideal S256x4096 .f32) (x1 : FVec Ideal S1x4096 .f32) (p : Fin 256) (g : Fin 32)
    (l : Fin 128) : scaledBlk x0 x1 (ix3 p g l) = x0 (ix2 p (lane g l)) * x1 (ix2 0 (lane g l)) := by
  unfold scaledBlk
  rw [shapeCast_self, shapeCast_self]
  refine (shapeCast_apply _ shapeCasts_S256x4096_S256x32x128 (ix3 p g l) (ix2 p (lane g l)) ?_).trans ?_
  · rewrite [Shape.rowMajor_val_two, Shape.rowMajor_val_three]
    show p.val * 4096 + (g.val * 128 + l.val) = (p.val * 32 + g.val) * 128 + l.val
    omega
  · rw [mulf_apply, broadcastTo_1b_ab_apply]

/-! ### The steps -/

/-- The largest magnitude of block `(p, g)`: the reduction over the last axis reads as the fold over the block. -/
theorem blockMax_read (y : FVec Ideal S256x32x128 .f32) (h : S256x32x128.Reduces [2] S256x32) (hφ : FKind.Formats .f32)
    (hacc : (0xFF800000#32 : BitVec 32) = FKind.maximumf.neutral .f32 hφ) (p : Fin 256) (g : Fin 32) :
    multiReduction (F := Ideal) .maximumf [2] S256x32 (absf y) 0xFF800000#32 h hφ hacc (ix2 p g)
      = blockMax fun l => max (y (ix3 p g l)) (-(y (ix3 p g l))) := by
  refine (Ideal.multiReduction_maximumf_single (absf y) 0xFF800000#32 h hφ hacc (ix2 p g)).trans ?_
  have e : ∀ l : Fin 128, h.lift (ix2 p g) l = ix3 p g l := fun l => funext fun c => Fin.ext (by
    match c with
    | ⟨0, _⟩ => rfl
    | ⟨1, _⟩ => rfl
    | ⟨2, _⟩ => rfl)
  unfold blockMax
  refine congrArg (fun f : Fin 128 → EReal => (Finset.univ : Finset (Fin 128)).fold max (Ideal.ofBits .f32 0xFF800000#32) f)
    (funext fun l => ?_)
  exact congrArg (fun i => max (y i) (-(y i))) (e l)

/-- The largest magnitude of every block, as `[256, 32, 1]`. -/
def maxBlk (y : FVec Ideal S256x32x128 .f32) : FVec Ideal S256x32x1 .f32 :=
  shapeCast S256x32x1
    (multiReduction (F := Ideal) .maximumf [2] S256x32 (absf y) 0xFF800000#32 reduces_S256x32x128_S256x32 (.inl rfl) rfl)
    shapeCasts_S256x32_S256x32x1

/-- At block `(p, g)` it is the block's largest magnitude. -/
theorem maxBlk_apply (y : FVec Ideal S256x32x128 .f32) (p : Fin 256) (g : Fin 32) :
    maxBlk y (ix3 p g 0) = blockMax fun l => max (y (ix3 p g l)) (-(y (ix3 p g l))) := by
  unfold maxBlk
  refine (shapeCast_apply _ shapeCasts_S256x32_S256x32x1 (ix3 p g (0 : Fin 1)) (ix2 p g) ?_).trans ?_
  · rewrite [Shape.rowMajor_val_two, Shape.rowMajor_val_three]
    show p.val * 32 + g.val = (p.val * 32 + g.val) * 1 + 0
    omega
  · exact blockMax_read y reduces_S256x32x128_S256x32 (.inl rfl) rfl p g

/-- The step from a largest magnitude, entry by entry over a variable array. -/
def stepOfVec (m : FVec Ideal S256x32x1 .f32) : FVec Ideal S256x32x1 .f32 :=
  minimumf
    (divf (maximumf (broadcast S256x32x1 (Scalar.ofBits (F := Ideal) .f32 0x2B8CBCCC#32)) m)
      (broadcast S256x32x1 (Scalar.ofBits (F := Ideal) .f32 0x40C00000#32)))
    (broadcast S256x32x1 (Scalar.ofBits (F := Ideal) .f32 0x43E00000#32))

theorem stepOfVec_apply (m : FVec Ideal S256x32x1 .f32) (i : S256x32x1.Idx) : stepOfVec m i = stepOf (m i) := rfl

/-- The steps of every block, as `[256, 32, 1]`, from the scaled row in blocks. -/
def stepBlk (y : FVec Ideal S256x32x128 .f32) : FVec Ideal S256x32x1 .f32 := stepOfVec (maxBlk y)

/-- The step of block `(p, g)`. -/
theorem stepBlk_apply (y : FVec Ideal S256x32x128 .f32) (p : Fin 256) (g : Fin 32) :
    stepBlk y (ix3 p g 0) = stepOf (blockMax fun l => max (y (ix3 p g l)) (-(y (ix3 p g l)))) := by
  unfold stepBlk
  exact (stepOfVec_apply (maxBlk y) (ix3 p g 0)).trans (congrArg stepOf (maxBlk_apply y p g))

/-! ### The entries on their grids -/

/-- Every entry put on the grid of its block's step. -/
def gridBlk (y : FVec Ideal S256x32x128 .f32) (t : FVec Ideal S256x32x1 .f32) : FVec Ideal S256x32x128 .f32 :=
  mulf
    (minimumf (broadcast S256x32x128 (Scalar.ofBits (F := Ideal) .f32 0x40C00000#32))
      (maximumf (broadcast S256x32x128 (Scalar.ofBits (F := Ideal) .f32 0xC0C00000#32))
        (roundeven (divf y (broadcastTo S256x32x128 t broadcasts_S256x32x1_S256x32x128)))))
    (broadcastTo S256x32x128 t broadcasts_S256x32x1_S256x32x128)

/-- The step broadcast along a block reads the block's one step. -/
theorem step_bcast_apply (t : FVec Ideal S256x32x1 .f32) (p : Fin 256) (g : Fin 32) (l : Fin 128) :
    broadcastTo S256x32x128 t broadcasts_S256x32x1_S256x32x128 (ix3 p g l) = t (ix3 p g 0) := by
  refine broadcastTo_apply t broadcasts_S256x32x1_S256x32x128 (ix3 p g l) (ix3 p g (0 : Fin 1)) fun a => ?_
  match a with
  | ⟨0, _⟩ => show p.val = if (256 : ℕ) = 1 then 0 else p.val; rw [if_neg (by decide)]
  | ⟨1, _⟩ => show g.val = if (32 : ℕ) = 1 then 0 else g.val; rw [if_neg (by decide)]
  | ⟨2, _⟩ => show (0 : ℕ) = if (1 : ℕ) = 1 then 0 else l.val; rw [if_pos rfl]

theorem gridBlk_apply (y : FVec Ideal S256x32x128 .f32) (t : FVec Ideal S256x32x1 .f32) (p : Fin 256) (g : Fin 32)
    (l : Fin 128) : gridBlk y t (ix3 p g l) = onGrid (y (ix3 p g l)) (t (ix3 p g 0)) := by
  unfold gridBlk onGrid
  show min (Ideal.ofBits .f32 0x40C00000#32) (max (Ideal.ofBits .f32 0xC0C00000#32)
      (Ideal.liftRound Ideal.roundHalfEven (Ideal.div (y (ix3 p g l))
        (broadcastTo S256x32x128 t broadcasts_S256x32x1_S256x32x128 (ix3 p g l)))))
    * broadcastTo S256x32x128 t broadcasts_S256x32x1_S256x32x128 (ix3 p g l) = _
  rw [step_bcast_apply]

/-! ### The flat view, and the contraction -/

/-- The blocks viewed flat: position `d` of row `p` is entry `d mod 128` of block `d / 128`. -/
theorem flat_apply (z : FVec Ideal S256x32x128 .f32) (p : Fin 256) (d : Fin 4096) :
    shapeCast S256x4096 z shapeCasts_S256x32x128_S256x4096 (ix2 p d)
      = z (ix3 p (blockOf d) ⟨d.val % 128, Nat.mod_lt _ (by decide)⟩) := by
  refine shapeCast_apply z shapeCasts_S256x32x128_S256x4096 (ix2 p d) _ ?_
  rewrite [Shape.rowMajor_val_two, Shape.rowMajor_val_three]
  show (p.val * 32 + d.val / 128) * 128 + d.val % 128 = p.val * 4096 + d.val
  have := d.isLt
  omega

theorem lhs_kept (i : S256x4096.Idx) (q : dot_S256x4096_S4096x4096_S256x4096_1_1_0_0_n_n.contr.Idx) : (dot_S256x4096_S4096x4096_S256x4096_1_1_0_0_n_n.lhsIdx i q 0).val = (i 0).val := by
  unfold DotDims.lhsIdx
  rw [dif_neg (show ¬(0 : Fin S256x4096.rank) ∈ dot_S256x4096_S4096x4096_S256x4096_1_1_0_0_n_n.lhsBatch by decide),
    dif_pos (show (0 : Fin S256x4096.rank) ∈ dot_S256x4096_S4096x4096_S256x4096_1_1_0_0_n_n.lhsNonContracting by decide)]
  rfl

theorem lhs_contr (i : S256x4096.Idx) (q : dot_S256x4096_S4096x4096_S256x4096_1_1_0_0_n_n.contr.Idx) : (dot_S256x4096_S4096x4096_S256x4096_1_1_0_0_n_n.lhsIdx i q 1).val = (q ⟨0, by decide⟩).val :=
  dot_S256x4096_S4096x4096_S256x4096_1_1_0_0_n_n.lhsIdx_val_of_single rfl i q

theorem rhs_kept (i : S256x4096.Idx) (q : dot_S256x4096_S4096x4096_S256x4096_1_1_0_0_n_n.contr.Idx) : (dot_S256x4096_S4096x4096_S256x4096_1_1_0_0_n_n.rhsIdx i q 0).val = (i 1).val := by
  unfold DotDims.rhsIdx
  rw [dif_neg (show ¬(0 : Fin S4096x4096.rank) ∈ dot_S256x4096_S4096x4096_S256x4096_1_1_0_0_n_n.rhsBatch by decide),
    dif_pos (show (0 : Fin S4096x4096.rank) ∈ dot_S256x4096_S4096x4096_S256x4096_1_1_0_0_n_n.rhsNonContracting by decide)]
  rfl

theorem rhs_contr (i : S256x4096.Idx) (q : dot_S256x4096_S4096x4096_S256x4096_1_1_0_0_n_n.contr.Idx) : (dot_S256x4096_S4096x4096_S256x4096_1_1_0_0_n_n.rhsIdx i q 1).val = (q ⟨0, by decide⟩).val :=
  dot_S256x4096_S4096x4096_S256x4096_1_1_0_0_n_n.rhsIdx_val_of_single rfl i q

/-- The contraction into a zero accumulator, at `(p, o)`: row `p` of the left operand against row `o` of the
    right one. -/
theorem matmul_row (A : FVec Ideal S256x4096 .bf16) (B : FVec Ideal S4096x4096 .bf16) (p : Fin 256) (o : Fin 4096) :
    matmul dot_S256x4096_S4096x4096_S256x4096_1_1_0_0_n_n none A B (constant (F := Ideal) S256x4096 .f32 0x00000000#32) (ix2 p o)
      = ∑ d : Fin 4096, A (ix2 p d) * B (ix2 o d) := by
  simp only [matmul]
  rw [Ideal.matmul_constant_zero_apply, ← Equiv.sum_comp (contrEquiv1 dot_S256x4096_S4096x4096_S256x4096_1_1_0_0_n_n 4096 rfl rfl).symm]
  refine Finset.sum_congr rfl fun k _ => ?_
  have hk := contrEquiv1_symm_val dot_S256x4096_S4096x4096_S256x4096_1_1_0_0_n_n 4096 rfl rfl k
  have el : dot_S256x4096_S4096x4096_S256x4096_1_1_0_0_n_n.lhsIdx (ix2 p o) ((contrEquiv1 dot_S256x4096_S4096x4096_S256x4096_1_1_0_0_n_n 4096 rfl rfl).symm k) = ix2 p k := funext fun a => Fin.ext (by
    match a with
    | ⟨0, _⟩ => exact lhs_kept _ _
    | ⟨1, _⟩ => exact (lhs_contr _ _).trans hk)
  have er : dot_S256x4096_S4096x4096_S256x4096_1_1_0_0_n_n.rhsIdx (ix2 p o) ((contrEquiv1 dot_S256x4096_S4096x4096_S256x4096_1_1_0_0_n_n 4096 rfl rfl).symm k) = ix2 o k := funext fun a => Fin.ext (by
    match a with
    | ⟨0, _⟩ => exact rhs_kept _ _
    | ⟨1, _⟩ => exact (rhs_contr _ _).trans hk)
  rw [el, er]

/-! ### The stored value -/

/-- The contraction of the flat view of a variable array of blocks with the weight, plus the bias, at `(p, o)`. -/
theorem tail_apply (z : FVec Ideal S256x32x128 .f32) (x2 : FVec Ideal S4096x4096 .bf16) (x3 : FVec Ideal S1x4096 .f32)
    (p : Fin 256) (o : Fin 4096) :
    addf
        (matmul (φ₁ := .bf16) (φ₂ := .bf16) dot_S256x4096_S4096x4096_S256x4096_1_1_0_0_n_n none
          (truncf .bf16 (shapeCast S256x4096 z shapeCasts_S256x32x128_S256x4096) bitsLt_bf16_f32)
          (shapeCast (α := Ideal .bf16) S4096x4096 x2 shapeCasts_S4096x4096_S4096x4096)
          (constant (F := Ideal) S256x4096 .f32 0x00000000#32))
        (broadcastTo S256x4096 (shapeCast (α := Ideal .f32) S1x4096 x3 shapeCasts_S1x4096_S1x4096)
          broadcasts_S1x4096_S256x4096) (ix2 p o)
      = (∑ d : Fin 4096, z (ix3 p (blockOf d) ⟨d.val % 128, Nat.mod_lt _ (by decide)⟩) * x2 (ix2 o d)) + x3 (ix2 0 o) := by
  rw [addf_apply, matmul_row, broadcastTo_1b_ab_apply, shapeCast_self, shapeCast_self]
  refine congrArg (· + x3 (ix2 0 o)) (Finset.sum_congr rfl fun d _ => ?_)
  rw [truncf_apply, flat_apply]

/-- The entry at position `d` of row `p`, once the row is scaled, cut into blocks and put on the blocks' grids, is
    entry `d` of the quantized row. -/
theorem quant_apply (x0 : FVec Ideal S256x4096 .f32) (x1 : FVec Ideal S1x4096 .f32) (p : Fin 256) (d : Fin 4096) :
    gridBlk (scaledBlk x0 x1) (stepBlk (scaledBlk x0 x1)) (ix3 p (blockOf d) ⟨d.val % 128, Nat.mod_lt _ (by decide)⟩)
      = rowQuant (fun d' => x0 (ix2 p d') * x1 (ix2 0 d')) d := by
  rw [gridBlk_apply, stepBlk_apply]
  simp only [scaledBlk_apply, lane_blockOf]
  unfold rowQuant rowStep
  rfl

/-- The stored value is the composition of the pieces. -/
theorem pay_eq (x0 : Vec Ideal S256x4096 .f32) (x1 : Vec Ideal S1x4096 .f32) (x2 : Vec Ideal S4096x4096 .bf16)
    (x3 : Vec Ideal S1x4096 .f32) :
    Cert.KernelIdeal.Gen.k0_pay1 (F := Ideal) x0 x1 x2 x3
      = addf
          (matmul (φ₁ := .bf16) (φ₂ := .bf16) dot_S256x4096_S4096x4096_S256x4096_1_1_0_0_n_n none
            (truncf .bf16 (shapeCast S256x4096 (gridBlk (scaledBlk x0 x1) (stepBlk (scaledBlk x0 x1)))
              shapeCasts_S256x32x128_S256x4096) bitsLt_bf16_f32)
            (shapeCast (α := Ideal .bf16) S4096x4096 x2 shapeCasts_S4096x4096_S4096x4096)
            (constant (F := Ideal) S256x4096 .f32 0x00000000#32))
          (broadcastTo S256x4096 (shapeCast (α := Ideal .f32) S1x4096 x3 shapeCasts_S1x4096_S1x4096)
            broadcasts_S1x4096_S256x4096) := by
  unfold Cert.KernelIdeal.Gen.k0_pay1 scaledBlk stepBlk stepOfVec maxBlk gridBlk
  rfl

theorem payload_apply (x0 : Vec Ideal Cert.KernelIdeal.S256x4096 .f32) (x1 : Vec Ideal Cert.KernelIdeal.S1x4096 .f32)
    (x2 : Vec Ideal Cert.KernelIdeal.S4096x4096 .bf16) (x3 : Vec Ideal Cert.KernelIdeal.S1x4096 .f32) (p : Fin 256) (o : Fin 4096) :
    Cert.KernelIdeal.Gen.k0_pay1 (F := Ideal) x0 x1 x2 x3 (ix2 p o)
      = (∑ d : Fin 4096, Cert.BlockQuant.rowQuant (fun d' => x0 (ix2 p d') * x1 (ix2 0 d')) d * x2 (ix2 o d)) + x3 (ix2 0 o) := by
  refine (congrFun (pay_eq x0 x1 x2 x3) (ix2 p o)).trans ?_
  refine (tail_apply _ x2 x3 p o).trans ?_
  refine congrArg (· + x3 (ix2 0 o)) (Finset.sum_congr rfl fun d _ => ?_)
  exact congrArg (· * x2 (ix2 o d)) (quant_apply x0 x1 p d)

end Cert.KernelIdeal.Payload

end
-- ==== Proof.KernelHost.lean ====
/-
  The host operations around the kernel's region, read at an index.

  Before the region: three reshapes (row-major position preserved), a matrix product of a [4096,64] by a
  [64,4096] array contracted over the shared axis, a sum with a [4096,4096] array, and a change of float
  format, which over the extended reals is the identity. After the region: one reshape. Each array the
  region finds, and the array the tail leaves, is given here entry by entry in terms of the arrays the
  operations read: a reshape reads the entry with the same row-major position, and the product over the
  extended reals is the finite sum over the contracted coordinate.
-/
import proofs.«108394_j49211735277854_2_alg».proof.Proof.Gen.KernelIdeal.Frame
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.ValueIdx Idealize.SL.Sem
open Idealize.ShloMosaic.TcCoe
open scoped BigOperators

variable (m : (ℓ : Loc nD τ sig) → Buf (Elt Ideal) ℓ) (c : Dev nD)

/-! ## The reshapes before the region -/

/-- Rows of the [16384,4096] array are the [4,4096] leading coordinates flattened: row q is (q / 4096, q % 4096). -/
theorem V_v0_apply (q : Fin 16384) (d : Fin 4096) :
    V m c main_v0 (ix2 q d) = m ((c : Thread nD τ).loc main_arg0)
      (ix3 (⟨q.val / 4096, by have := q.isLt; omega⟩ : Fin 4) (⟨q.val % 4096, by omega⟩ : Fin 4096) d) := by
  have e : (V m c main_v0 : S16384x4096.Idx → EReal)
      = shapeCast S16384x4096 (m ((c : Thread nD τ).loc main_arg0) : S4x4096x4096.Idx → EReal)
          shapeCasts_S4x4096x4096_S16384x4096 := by
    show StableHlo.after hostOps0 (fun b => m (c, b)) (Proc.devRef .tc main_v0) = _
    after_results
    rfl
  refine (congrFun e (ix2 q d)).trans ?_
  exact shapeCast_apply _ shapeCasts_S4x4096x4096_S16384x4096 (ix2 q d)
    (ix3 (⟨q.val / 4096, by have := q.isLt; omega⟩ : Fin 4) (⟨q.val % 4096, by omega⟩ : Fin 4096) d)
    (by rewrite [Shape.rowMajor_val_three, Shape.rowMajor_val_two]
        have hq : q.val < 16384 := q.isLt
        show (q.val / 4096 * 4096 + q.val % 4096) * 4096 + d.val = q.val * 4096 + d.val
        omega)

/-- A vector of 4096 entries as a one-row array: the row's entry d is the vector's entry d. -/
theorem V_v1_apply (d : Fin 4096) :
    V m c main_v1 (ix2 0 d) = m ((c : Thread nD τ).loc main_arg2) (ix1 d) := by
  have e : (V m c main_v1 : S1x4096.Idx → EReal)
      = shapeCast S1x4096 (m ((c : Thread nD τ).loc main_arg2) : S4096.Idx → EReal) shapeCasts_S4096_S1x4096 := by
    show StableHlo.after hostOps0 (fun b => m (c, b)) (Proc.devRef .tc main_v1) = _
    after_results
    rfl
  refine (congrFun e (ix2 0 d)).trans ?_
  exact shapeCast_apply _ shapeCasts_S4096_S1x4096 (ix2 0 d) (ix1 d)
    (by rewrite [Shape.rowMajor_val_one, Shape.rowMajor_val_two]; show d.val = 0 * 4096 + d.val; omega)

/-- The same for the second vector. -/
theorem V_v2_apply (o : Fin 4096) :
    V m c main_v2 (ix2 0 o) = m ((c : Thread nD τ).loc main_arg5) (ix1 o) := by
  have e : (V m c main_v2 : S1x4096.Idx → EReal)
      = shapeCast S1x4096 (m ((c : Thread nD τ).loc main_arg5) : S4096.Idx → EReal) shapeCasts_S4096_S1x4096 := by
    show StableHlo.after hostOps0 (fun b => m (c, b)) (Proc.devRef .tc main_v2) = _
    after_results
    rfl
  refine (congrFun e (ix2 0 o)).trans ?_
  exact shapeCast_apply _ shapeCasts_S4096_S1x4096 (ix2 0 o) (ix1 o)
    (by rewrite [Shape.rowMajor_val_one, Shape.rowMajor_val_two]; show o.val = 0 * 4096 + o.val; omega)

/-! ## The product, the sum and the format change -/

/-- The left operand's kept coordinate is the output's row. -/
theorem lhs_0 (j : S4096x4096.Idx) (q : dot_S4096x64_S64x4096_S4096x4096_1_0_0_1_n_n.contr.Idx) :
    (dot_S4096x64_S64x4096_S4096x4096_1_0_0_1_n_n.lhsIdx j q 0).val = (j 0).val := by
  unfold DotDims.lhsIdx
  rw [dif_neg (show ¬(0 : Fin S4096x64.rank) ∈ dot_S4096x64_S64x4096_S4096x4096_1_0_0_1_n_n.lhsBatch by decide),
    dif_pos (show (0 : Fin S4096x64.rank) ∈ dot_S4096x64_S64x4096_S4096x4096_1_0_0_1_n_n.lhsNonContracting by decide)]
  rfl
/-- The left operand's contracted coordinate is the contraction position. -/
theorem lhs_1 (j : S4096x4096.Idx) (q : dot_S4096x64_S64x4096_S4096x4096_1_0_0_1_n_n.contr.Idx) :
    (dot_S4096x64_S64x4096_S4096x4096_1_0_0_1_n_n.lhsIdx j q 1).val = (q ⟨0, by decide⟩).val :=
  dot_S4096x64_S64x4096_S4096x4096_1_0_0_1_n_n.lhsIdx_val_of_single rfl j q
/-- The right operand's contracted coordinate is the contraction position. -/
theorem rhs_0 (j : S4096x4096.Idx) (q : dot_S4096x64_S64x4096_S4096x4096_1_0_0_1_n_n.contr.Idx) :
    (dot_S4096x64_S64x4096_S4096x4096_1_0_0_1_n_n.rhsIdx j q 0).val = (q ⟨0, by decide⟩).val :=
  dot_S4096x64_S64x4096_S4096x4096_1_0_0_1_n_n.rhsIdx_val_of_single rfl j q
/-- The right operand's kept coordinate is the output's column. -/
theorem rhs_1 (j : S4096x4096.Idx) (q : dot_S4096x64_S64x4096_S4096x4096_1_0_0_1_n_n.contr.Idx) :
    (dot_S4096x64_S64x4096_S4096x4096_1_0_0_1_n_n.rhsIdx j q 1).val = (j 1).val := by
  unfold DotDims.rhsIdx
  rw [dif_neg (show ¬(1 : Fin S64x4096.rank) ∈ dot_S4096x64_S64x4096_S4096x4096_1_0_0_1_n_n.rhsBatch by decide),
    dif_pos (show (1 : Fin S64x4096.rank) ∈ dot_S4096x64_S64x4096_S4096x4096_1_0_0_1_n_n.rhsNonContracting by decide)]
  rfl

/-- The product at an entry: the sum over the 64 contracted positions k of the [4096,64] array at (o, k)
    times the [64,4096] array at (k, d). -/
theorem dot_apply (o d : Fin 4096) :
    (Host.dotGeneral (F := Ideal) (φ₁ := .f32) (φ₂ := .f32) dot_S4096x64_S64x4096_S4096x4096_1_0_0_1_n_n none
        (m ((c : Thread nD τ).loc main_arg4) : FVec Ideal S4096x64 .f32)
        (m ((c : Thread nD τ).loc main_arg3) : FVec Ideal S64x4096 .f32) (ix2 o d) : EReal)
      = ∑ k : Fin 64, @HMul.hMul EReal EReal EReal _
          (m ((c : Thread nD τ).loc main_arg4) (ix2 o k)) (m ((c : Thread nD τ).loc main_arg3) (ix2 k d)) := by
  simp only [Host.dotGeneral]
  rw [Ideal.dotGeneral_apply, ← Equiv.sum_comp (contrEquiv1 dot_S4096x64_S64x4096_S4096x4096_1_0_0_1_n_n 64 rfl rfl).symm]
  refine Finset.sum_congr rfl fun k _ => ?_
  have hk := contrEquiv1_symm_val dot_S4096x64_S64x4096_S4096x4096_1_0_0_1_n_n 64 rfl rfl k
  have el : dot_S4096x64_S64x4096_S4096x4096_1_0_0_1_n_n.lhsIdx (ix2 o d) ((contrEquiv1 dot_S4096x64_S64x4096_S4096x4096_1_0_0_1_n_n 64 rfl rfl).symm k) = ix2 o k :=
    funext fun a => Fin.ext (by
      match a with
      | ⟨0, _⟩ => exact lhs_0 _ _
      | ⟨1, _⟩ => exact (lhs_1 _ _).trans hk)
  have er : dot_S4096x64_S64x4096_S4096x4096_1_0_0_1_n_n.rhsIdx (ix2 o d) ((contrEquiv1 dot_S4096x64_S64x4096_S4096x4096_1_0_0_1_n_n 64 rfl rfl).symm k) = ix2 k d :=
    funext fun a => Fin.ext (by
      match a with
      | ⟨0, _⟩ => exact (rhs_0 _ _).trans hk
      | ⟨1, _⟩ => exact rhs_1 _ _)
  rw [el, er]

/-- Entry (o, d) of the array the region finds: the [4096,4096] summand's entry plus the product's entry,
    the change of format being the identity over the extended reals. -/
theorem V_v5_apply (o d : Fin 4096) :
    V m c main_v5 (ix2 o d) = @HAdd.hAdd EReal EReal EReal _ (m ((c : Thread nD τ).loc main_arg1) (ix2 o d))
      (∑ k : Fin 64, @HMul.hMul EReal EReal EReal _
        (m ((c : Thread nD τ).loc main_arg4) (ix2 o k)) (m ((c : Thread nD τ).loc main_arg3) (ix2 k d))) := by
  have e : (V m c main_v5 : S4096x4096.Idx → EReal)
      = (truncf (F := Ideal) .bf16 (addf (F := Ideal) (m ((c : Thread nD τ).loc main_arg1) : FVec Ideal S4096x4096 .f32)
          (Host.dotGeneral (F := Ideal) (φ₁ := .f32) (φ₂ := .f32) dot_S4096x64_S64x4096_S4096x4096_1_0_0_1_n_n none
            (m ((c : Thread nD τ).loc main_arg4) : FVec Ideal S4096x64 .f32)
            (m ((c : Thread nD τ).loc main_arg3) : FVec Ideal S64x4096 .f32))) bitsLt_bf16_f32
          : FVec Ideal S4096x4096 .bf16) := by
    show StableHlo.after hostOps0 (fun b => m (c, b)) (Proc.devRef .tc main_v5) = _
    after_results
  have e2 : V m c main_v5 (ix2 o d) = @HAdd.hAdd EReal EReal EReal _ (m ((c : Thread nD τ).loc main_arg1) (ix2 o d))
      (Host.dotGeneral (F := Ideal) (φ₁ := .f32) (φ₂ := .f32) dot_S4096x64_S64x4096_S4096x4096_1_0_0_1_n_n none
        (m ((c : Thread nD τ).loc main_arg4) : FVec Ideal S4096x64 .f32)
        (m ((c : Thread nD τ).loc main_arg3) : FVec Ideal S64x4096 .f32) (ix2 o d)) := congrFun e (ix2 o d)
  rw [e2, dot_apply]

/-! ## The reshape after the region -/

/-- The [4,4096,4096] result's entry (b, r, o) is the [16384,4096] array's entry at row b * 4096 + r, column o,
    whatever the contents the tail starts from. -/
theorem tail_apply (W : Valuation τ sig (Elt Ideal)) (b : Fin 4) (r o : Fin 4096) :
    StableHlo.after (hostOps1 (F := Ideal)) W (Proc.devRef .tc main_v7) (ix3 b r o)
      = W (Proc.devRef .tc main_v6)
          (ix2 (⟨b.val * 4096 + r.val, by have := b.isLt; have := r.isLt; omega⟩ : Fin 16384) o) := by
  have e : (StableHlo.after (hostOps1 (F := Ideal)) W (Proc.devRef .tc main_v7) : S4x4096x4096.Idx → EReal)
      = shapeCast S4x4096x4096 (W (Proc.devRef .tc main_v6) : S16384x4096.Idx → EReal)
          shapeCasts_S16384x4096_S4x4096x4096 := by
    after_results
    rfl
  refine (congrFun e (ix3 b r o)).trans ?_
  exact shapeCast_apply _ shapeCasts_S16384x4096_S4x4096x4096 (ix3 b r o)
    (ix2 (⟨b.val * 4096 + r.val, by have := b.isLt; have := r.isLt; omega⟩ : Fin 16384) o)
    (by rewrite [Shape.rowMajor_val_two, Shape.rowMajor_val_three]
        show (b.val * 4096 + r.val) * 4096 + o.val = (b.val * 4096 + r.val) * 4096 + o.val
        rfl)

end Cert.KernelIdeal.HostSide

end
-- ==== Proof.KernelValue.lean ====
/-
  What the kernel's run leaves in its result array.

  The grid has 64 points; point `t` works on rows `256 t … 256 t + 255` of the `[16384, 4096]` view of the activations,
  reads the whole per-column factor, the whole corrected weight and the whole bias, and writes back rows
  `256 t … 256 t + 255` of the `[16384, 4096]` output. Row `q` of that view is row `(q / 4096, q mod 4096)` of the
  `[4, 4096, 4096]` array, so what point `t` writes back is block `t` of ONE function of the six argument arrays:
  at `(q, o)`, the result with the correction folded into the weight, for row `(q / 4096, q mod 4096)` and output `o`.
  The 64 blocks cover the output (row `q` lies in block `q / 256`), so the output array ends holding that function,
  and the reshape after the region reads it at `(b, r, o)` from row `4096 b + r`.
-/
import proofs.«108394_j49211735277854_2_alg».proof.Proof.Gen.KernelIdeal.Frame
import proofs.«108394_j49211735277854_2_alg».proof.Proof.KernelPayload
import proofs.«108394_j49211735277854_2_alg».proof.Proof.KernelHost
import proofs.«108394_j49211735277854_2_alg».proof.Proof.Rows
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.BlockQuant Cert.KernelIdeal.HostSide Cert.KernelIdeal.Payload

variable (m : (ℓ : Loc nD τ sig) → Buf (Elt Ideal) ℓ) (ρ : Dev nD → PrngReg)

/-- The six argument arrays of device `c`, as arrays of extended reals. -/
abbrev act (c : Dev nD) : Sact.Idx → EReal := m ((c : Thread nD τ).loc main_arg0)
abbrev wgt (c : Dev nD) : Ssq.Idx → EReal := m ((c : Thread nD τ).loc main_arg1)
abbrev fac (c : Dev nD) : Svec.Idx → EReal := m ((c : Thread nD τ).loc main_arg2)
abbrev dwn (c : Dev nD) : Sdown.Idx → EReal := m ((c : Thread nD τ).loc main_arg3)
abbrev upp (c : Dev nD) : Sup.Idx → EReal := m ((c : Thread nD τ).loc main_arg4)
abbrev bia (c : Dev nD) : Svec.Idx → EReal := m ((c : Thread nD τ).loc main_arg5)

theorem zeros : (![0, 0] : Fin 2 → Nat) = fun _ => 0 := funext fun a => by fin_cases a <;> rfl

/-- The output in its `[16384, 4096]` view, as one function of the six argument arrays. -/
def flat (c : Dev nD) : S16384x4096.Idx → EReal := fun j =>
  folded (act m c) (wgt m c) (fac m c) (dwn m c) (upp m c) (bia m c)
    ⟨(j 0).val / 4096, by have h : (j 0).val < 16384 := (j 0).isLt; show (j 0).val / 4096 < 4; omega⟩ ⟨(j 0).val % 4096, Nat.mod_lt _ (by decide)⟩ ⟨(j 1).val, (j 1).isLt⟩

/-- The result array `[4, 4096, 4096]`, as one function of the six argument arrays. -/
def whole (c : Dev nD) : S4x4096x4096.Idx → EReal := fun i =>
  folded (act m c) (wgt m c) (fac m c) (dwn m c) (upp m c) (bia m c) ⟨(i 0).val, (i 0).isLt⟩ ⟨(i 1).val, (i 1).isLt⟩ ⟨(i 2).val, (i 2).isLt⟩

/-- The five windows' index maps, decided over the 64 points: the activation tile and the output tile are block `t` of their
    arrays' rows; the factor, the weight and the bias are always their one whole block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 64 :=
  (by decide +kernel : ∀ t : Fin grid0.N, _)

/-- Every block of rows is some point's. -/
theorem index_onto : ∀ q : Fin 64, ∃ t : Fin cfg0.N, win0_4.index t (0 : Fin 2) = q.val ∧ win0_4.index t (1 : Fin 2) = 0 :=
  (by decide +kernel : ∀ q : Fin 64, ∃ t : Fin grid0.N, win0_4.index t (0 : Fin 2) = q.val ∧ win0_4.index t (1 : Fin 2) = 0)

/-! ## The input blocks at a point, entry by entry -/

/-- Row `256 t + p` of the `[16384, 4096]` view. -/
def rowAt (t : Fin cfg0.N) (p : Fin 256) : Fin 16384 :=
  ⟨t.val * 256 + p.val, by have := (index_facts t).2.2.2.2.2.2.2.2.2.2; have := p.isLt; omega⟩

theorem tile_apply (c : Dev nD) (t : Fin cfg0.N) (p : Fin 256) (d : Fin 4096) :
    iblk m c 0 t (ix2 p d) = act m c (ix3 ⟨(rowAt t p).val / 4096, by have := (rowAt t p).isLt; omega⟩ ⟨(rowAt t p).val % 4096, Nat.mod_lt _ (by decide)⟩ d) := by
  obtain ⟨e0, e1, -⟩ := index_facts t
  have he : ((cfg0.win 0).blk t).view.emb (ix2 p d) = ix2 (rowAt t p) d := by
    funext a; apply Fin.ext
    match a with
    | ⟨0, _⟩ => show win0_0.index t (0 : Fin 2) * 256 + 1 * p.val = t.val * 256 + p.val; omega
    | ⟨1, _⟩ => show win0_0.index t (1 : Fin 2) * 4096 + 1 * d.val = d.val; omega
  show V m c main_v0 (((cfg0.win 0).blk t).view.emb (ix2 p d)) = _
  rw [he]
  exact V_v0_apply m c (rowAt t p) d

theorem factor_apply (c : Dev nD) (t : Fin cfg0.N) (d : Fin 4096) :
    iblk m c 1 t (ix2 (0 : Fin 1) d) = fac m c (ix1 d) := by
  obtain ⟨-, -, e0, e1, -⟩ := index_facts t
  have he : ((cfg0.win 1).blk t).view.emb (ix2 (0 : Fin 1) d) = ix2 (0 : Fin 1) d := by
    funext a; apply Fin.ext
    match a with
    | ⟨0, _⟩ => show win0_1.index t (0 : Fin 2) * 1 + 1 * 0 = 0; omega
    | ⟨1, _⟩ => show win0_1.index t (1 : Fin 2) * 4096 + 1 * d.val = d.val; omega
  show V m c main_v1 (((cfg0.win 1).blk t).view.emb (ix2 (0 : Fin 1) d)) = _
  rw [he]
  exact V_v1_apply m c d

theorem weight_apply (c : Dev nD) (t : Fin cfg0.N) (o d : Fin 4096) :
    iblk m c 2 t (ix2 o d) = wgt m c (ix2 o d) + ∑ k : Fin 64, upp m c (ix2 o k) * dwn m c (ix2 k d) := by
  obtain ⟨-, -, -, -, e0, e1, -⟩ := index_facts t
  have he : ((cfg0.win 2).blk t).view.emb (ix2 o d) = ix2 o d := by
    funext a; apply Fin.ext
    match a with
    | ⟨0, _⟩ => show win0_2.index t (0 : Fin 2) * 4096 + 1 * o.val = o.val; omega
    | ⟨1, _⟩ => show win0_2.index t (1 : Fin 2) * 4096 + 1 * d.val = d.val; omega
  show V m c main_v5 (((cfg0.win 2).blk t).view.emb (ix2 o d)) = _
  rw [he]
  exact V_v5_apply m c o d

theorem bias_apply (c : Dev nD) (t : Fin cfg0.N) (o : Fin 4096) :
    iblk m c 3 t (ix2 (0 : Fin 1) o) = bia m c (ix1 o) := by
  obtain ⟨-, -, -, -, -, -, e0, e1, -⟩ := index_facts t
  have he : ((cfg0.win 3).blk t).view.emb (ix2 (0 : Fin 1) o) = ix2 (0 : Fin 1) o := by
    funext a; apply Fin.ext
    match a with
    | ⟨0, _⟩ => show win0_3.index t (0 : Fin 2) * 1 + 1 * 0 = 0; omega
    | ⟨1, _⟩ => show win0_3.index t (1 : Fin 2) * 4096 + 1 * o.val = o.val; omega
  show V m c main_v2 (((cfg0.win 3).blk t).view.emb (ix2 (0 : Fin 1) o)) = _
  rw [he]
  exact V_v2_apply m c o

/-! ## What a point writes back -/

/-- Point `t` writes back block `t` of `flat`. -/
theorem flushed_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  unfold out0_4
  rw [View.canon_unit_zero zeros]
  simp only [View.ld_unit_zero (S := S256x4096) zeros, View.ld_unit_zero (S := S1x4096) zeros, View.ld_unit_zero (S := S4096x4096) zeros]
  funext j
  obtain ⟨p, o, rfl⟩ : ∃ (p : Fin 256) (o : Fin 4096), j = ix2 p o := ⟨j 0, j 1, eq_ix2 j⟩
  obtain ⟨-, -, -, -, -, -, -, -, e0, e1, -⟩ := index_facts t
  have he : ((cfg0.win 4).blk t).view.emb (ix2 p o) = ix2 (rowAt t p) o := by
    funext a; apply Fin.ext
    match a with
    | ⟨0, _⟩ => show win0_4.index t (0 : Fin 2) * 256 + 1 * p.val = t.val * 256 + p.val; omega
    | ⟨1, _⟩ => show win0_4.index t (1 : Fin 2) * 4096 + 1 * o.val = o.val; omega
  show k0_pay1 (F := Ideal) (iblk m c 0 t) (iblk m c 1 t) (iblk m c 2 t) (iblk m c 3 t) (ix2 p o) = flat m c (((cfg0.win 4).blk t).view.emb (ix2 p o))
  rw [he]
  refine (payload_apply (iblk m c 0 t) (iblk m c 1 t) (iblk m c 2 t) (iblk m c 3 t) p o).trans ?_
  simp only [tile_apply, factor_apply, weight_apply, bias_apply]
  rfl

/-! ## The blocks cover the output -/

theorem mem_blk (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v6).slice (win0_4.rect t)).set ↔ _
  rw [View.set_slice_whole, Rect.mem_set_unit]
  exact Iff.rfl

theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, q0, q1⟩ := index_onto ⟨(i 0).val / 256, by omega⟩
  have q0' : win0_4.index t (0 : Fin 2) = (i 0).val / 256 := q0
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The output array after the run. -/
theorem final (c : Dev nD) : (dats m 0 c).arrAt 4 cfg0.N = flat m c :=
  (dats m 0 c).arrAt_eq_of_cover 4 (flat m c) (fun t _ => flushed_eq m c t) covered

/-! ## The reshape after the region -/

/-- What @main returns: the output read back as `[4, 4096, 4096]`. -/
theorem tail_eq (c : Dev nD) :
    Pipeline.afterTail₀ cfgs (dats m) 0 (V0 m) [hostOps1] c main_v7 = whole m c := by
  funext i
  obtain ⟨b, r, o, rfl⟩ : ∃ (b : Fin 4) (r : Fin 4096) (o : Fin 4096), i = ix3 b r o := ⟨i 0, i 1, i 2, eq_ix3 i⟩
  unfold Pipeline.afterTail₀
  show StableHlo.after (hostOps1 (F := Ideal)) _ (Proc.devRef .tc main_v7) (ix3 b r o) = _
  rw [Cert.KernelIdeal.HostSide.tail_apply]
  have hw := (Pipeline.withArrays_arr spec0 winFacts0.arr_inj c (V0 m c) (fun w => (dats m 0 c).arrAt w (cfgs 0).N) 4).trans (final m c)
  have hw' : Pipeline.withArrays spec0 c (V0 m c) (fun w => (dats m 0 c).arrAt w (cfgs 0).N) (Proc.devRef .tc main_v6) = flat m c := hw
  rw [hw']
  have hb := b.isLt; have hr := r.isLt
  show folded _ _ _ _ _ _ ⟨(b.val * 4096 + r.val) / 4096, _⟩ ⟨(b.val * 4096 + r.val) % 4096, _⟩ ⟨o.val, _⟩ = folded _ _ _ _ _ _ ⟨b.val, _⟩ ⟨r.val, _⟩ ⟨o.val, _⟩
  have e1 : (b.val * 4096 + r.val) / 4096 = b.val := by omega
  have e2 : (b.val * 4096 + r.val) % 4096 = r.val := by omega
  simp only [e1, e2]

/-! ## The run, read -/

/-- Every weakly fair execution of the idealized kernel's @main terminates with the result array at `whole` of the six
    argument arrays, and the argument arrays unchanged. -/
theorem run : θ_run defs (onTc (τ := τ) (main (F := Ideal))) ⟨m, fun _ => 0, ρ⟩ fun r => ∀ c : Dev nD,
      r.2.mem ((c.tc : Thread nD τ).loc main_v7) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Arrays

end
-- ==== Proof.RefRun.lean ====
/-
  The reference's host program, read as a composition of four stages.

  Its 39 operations are cut where the mathematics cuts them: (1) the activations are scaled by the per-column factor
  and viewed as 524288 blocks of 128 consecutive entries; (2) each block gets its step, `min (max ε (max |·|) / 6) 448`;
  (3) each entry is divided by its block's step, rounded to nearest even, clipped to `[-6, 6]`, multiplied back by the
  step, and the blocks are viewed as `[4, 4096, 4096]` again; (4) the quantized activations are contracted with the base
  weight, and with the two low-rank factors one after the other, the two products are added and the bias is added.
  Stage (2) reads only stage (1)'s array, stage (3) only those two, stage (4) only stage (3)'s array and four arguments,
  so the array each stage leaves is a short term of the arrays before it, and the whole result is their composition.
  No operation writes an argument array.
-/
import proofs.«108394_j49211735277854_2_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The operations, whole and in four segments -/

/-- @main's operations, in order (a called function's operations stand in its call's place). -/
abbrev ops : List (HloOp τ sig (Elt F)) :=
  [ unary main_arg2 main_v0 (broadcastInDim S1x1x4096 ![2] bcast_S4096_S1x1x4096_2 : (⟨S4096, .f32⟩ : BufTy).Contents (Elt F) → (⟨S1x1x4096, .f32⟩ : BufTy).Contents (Elt F)),
    unary main_v0 main_v1 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_arg0 main_v1 main_v2 (mulf : (⟨S4x4096x4096, .f32⟩ : BufTy).Contents (Elt F) → (⟨S4x4096x4096, .f32⟩ : BufTy).Contents (Elt F) → (⟨S4x4096x4096, .f32⟩ : BufTy).Contents (Elt F)),
    reshape main_v2 main_v3 rfl shapeCasts_S4x4096x4096_S524288x128,
    unary main_v3 main_v4 (Host.absf : (⟨S524288x128, .f32⟩ : BufTy).Contents (Elt F) → (⟨S524288x128, .f32⟩ : BufTy).Contents (Elt F)),
    nullary main_cst (constant S_ .f32 0xFF800000#32),
    binary main_v4 main_cst main_v5 ((fun x v => Host.reduce FloatOps.maximumf x v reducesTo_S524288x128_S524288_d1 h_S_) : (⟨S524288x128, .f32⟩ : BufTy).Contents (Elt F) → (⟨S_, .f32⟩ : BufTy).Contents (Elt F) → (⟨S524288, .f32⟩ : BufTy).Contents (Elt F)),
    unary main_v5 main_v6 (broadcastInDim S524288x1 ![0] bcast_S524288_S524288x1_0 : (⟨S524288, .f32⟩ : BufTy).Contents (Elt F) → (⟨S524288x1, .f32⟩ : BufTy).Contents (Elt F)),
    nullary main_cst_0 (constant S_ .f32 0x2B8CBCCC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S524288x1, .f32⟩) main_call0_v1) (broadcastInDim S524288x1 ![] bcast_S_S524288x1),
    TRef.binary (TRef.of (T := ⟨S524288x1, .f32⟩) main_call0_v1) (TRef.of (T := ⟨S524288x1, .f32⟩) main_v6) (TRef.of (T := ⟨S524288x1, .f32⟩) main_v7) maximumf,
    nullary main_cst_1 (constant S_ .f32 0x40C00000#32),
    unary main_cst_1 main_v8 (broadcastInDim S524288x1 ![] bcast_S_S524288x1 : (⟨S_, .f32⟩ : BufTy).Contents (Elt F) → (⟨S524288x1, .f32⟩ : BufTy).Contents (Elt F)),
    binary main_v7 main_v8 main_v9 (Host.divf : (⟨S524288x1, .f32⟩ : BufTy).Contents (Elt F) → (⟨S524288x1, .f32⟩ : BufTy).Contents (Elt F) → (⟨S524288x1, .f32⟩ : BufTy).Contents (Elt F)),
    nullary main_cst_2 (constant S_ .f32 0x43E00000#32),
    unary main_cst_2 main_v10 (broadcastInDim S524288x1 ![] bcast_S_S524288x1 : (⟨S_, .f32⟩ : BufTy).Contents (Elt F) → (⟨S524288x1, .f32⟩ : BufTy).Contents (Elt F)),
    binary main_v9 main_v10 main_v11 (minimumf : (⟨S524288x1, .f32⟩ : BufTy).Contents (Elt F) → (⟨S524288x1, .f32⟩ : BufTy).Contents (Elt F) → (⟨S524288x1, .f32⟩ : BufTy).Contents (Elt F)),
    unary main_v11 main_v12 (broadcastInDim S524288x128 ![0, 1] bcast_S524288x1_S524288x128_0_1 : (⟨S524288x1, .f32⟩ : BufTy).Contents (Elt F) → (⟨S524288x128, .f32⟩ : BufTy).Contents (Elt F)),
    binary main_v3 main_v12 main_v13 (Host.divf : (⟨S524288x128, .f32⟩ : BufTy).Contents (Elt F) → (⟨S524288x128, .f32⟩ : BufTy).Contents (Elt F) → (⟨S524288x128, .f32⟩ : BufTy).Contents (Elt F)),
    TRef.unary (TRef.of (T := ⟨S524288x128, .f32⟩) main_v13) (TRef.of (T := ⟨S524288x128, .f32⟩) main_v14) Host.roundeven,
    nullary main_cst_3 (constant S_ .f32 0xC0C00000#32),
    nullary main_cst_4 (constant S_ .f32 0x40C00000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S524288x128, .f32⟩) main_call2_v1) (broadcastInDim S524288x128 ![] bcast_S_S524288x128),
    TRef.binary (TRef.of (T := ⟨S524288x128, .f32⟩) main_call2_v1) (TRef.of (T := ⟨S524288x128, .f32⟩) main_v14) (TRef.of (T := ⟨S524288x128, .f32⟩) main_call2_v2) maximumf,
    TRef.unary (TRef.of (T := ⟨S_, .f32⟩) main_cst_4) (TRef.of (T := ⟨S_, .f32⟩) main_call2_v3) id,
    TRef.unary (TRef.of (T := ⟨S_, .f32⟩) main_call2_v3) (TRef.of (T := ⟨S524288x128, .f32⟩) main_call2_v4) (broadcastInDim S524288x128 ![] bcast_S_S524288x128),
    TRef.binary (TRef.of (T := ⟨S524288x128, .f32⟩) main_call2_v4) (TRef.of (T := ⟨S524288x128, .f32⟩) main_call2_v2) (TRef.of (T := ⟨S524288x128, .f32⟩) main_v15) minimumf,
    unary main_v11 main_v16 (broadcastInDim S524288x128 ![0, 1] bcast_S524288x1_S524288x128_0_1 : (⟨S524288x1, .f32⟩ : BufTy).Contents (Elt F) → (⟨S524288x128, .f32⟩ : BufTy).Contents (Elt F)),
    binary main_v15 main_v16 main_v17 (mulf : (⟨S524288x128, .f32⟩ : BufTy).Contents (Elt F) → (⟨S524288x128, .f32⟩ : BufTy).Contents (Elt F) → (⟨S524288x128, .f32⟩ : BufTy).Contents (Elt F)),
    reshape main_v17 main_v18 rfl shapeCasts_S524288x128_S4x4096x4096,
    binary main_v18 main_arg1 main_v19 ((fun l r => Host.dotGeneral dot_S4x4096x4096_S4096x4096_S4x4096x4096_2_1_01_0_n_n none l r) : (⟨S4x4096x4096, .f32⟩ : BufTy).Contents (Elt F) → (⟨S4096x4096, .f32⟩ : BufTy).Contents (Elt F) → (⟨S4x4096x4096, .f32⟩ : BufTy).Contents (Elt F)),
    binary main_v18 main_arg3 main_v20 ((fun l r => Host.dotGeneral dot_S4x4096x4096_S64x4096_S4x4096x64_2_1_01_0_n_n none l r) : (⟨S4x4096x4096, .f32⟩ : BufTy).Contents (Elt F) → (⟨S64x4096, .f32⟩ : BufTy).Contents (Elt F) → (⟨S4x4096x64, .f32⟩ : BufTy).Contents (Elt F)),
    binary main_v20 main_arg4 main_v21 ((fun l r => Host.dotGeneral dot_S4x4096x64_S4096x64_S4x4096x4096_2_1_01_0_n_n none l r) : (⟨S4x4096x64, .f32⟩ : BufTy).Contents (Elt F) → (⟨S4096x64, .f32⟩ : BufTy).Contents (Elt F) → (⟨S4x4096x4096, .f32⟩ : BufTy).Contents (Elt F)),
    binary main_v19 main_v21 main_v22 (addf : (⟨S4x4096x4096, .f32⟩ : BufTy).Contents (Elt F) → (⟨S4x4096x4096, .f32⟩ : BufTy).Contents (Elt F) → (⟨S4x4096x4096, .f32⟩ : BufTy).Contents (Elt F)),
    unary main_arg5 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_v22 main_v24 main_v25 (addf : (⟨S4x4096x4096, .f32⟩ : BufTy).Contents (Elt F) → (⟨S4x4096x4096, .f32⟩ : BufTy).Contents (Elt F) → (⟨S4x4096x4096, .f32⟩ : BufTy).Contents (Elt F)) ]

/-- Scaling, and the view as blocks of 128. -/
abbrev opsA : List (HloOp τ sig (Elt F)) :=
  [ unary main_arg2 main_v0 (broadcastInDim S1x1x4096 ![2] bcast_S4096_S1x1x4096_2 : (⟨S4096, .f32⟩ : BufTy).Contents (Elt F) → (⟨S1x1x4096, .f32⟩ : BufTy).Contents (Elt F)),
    unary main_v0 main_v1 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_arg0 main_v1 main_v2 (mulf : (⟨S4x4096x4096, .f32⟩ : BufTy).Contents (Elt F) → (⟨S4x4096x4096, .f32⟩ : BufTy).Contents (Elt F) → (⟨S4x4096x4096, .f32⟩ : BufTy).Contents (Elt F)),
    reshape main_v2 main_v3 rfl shapeCasts_S4x4096x4096_S524288x128 ]

/-- Each block's step. -/
abbrev opsB1 : List (HloOp τ sig (Elt F)) :=
  [ unary main_v3 main_v4 (Host.absf : (⟨S524288x128, .f32⟩ : BufTy).Contents (Elt F) → (⟨S524288x128, .f32⟩ : BufTy).Contents (Elt F)),
    nullary main_cst (constant S_ .f32 0xFF800000#32),
    binary main_v4 main_cst main_v5 ((fun x v => Host.reduce FloatOps.maximumf x v reducesTo_S524288x128_S524288_d1 h_S_) : (⟨S524288x128, .f32⟩ : BufTy).Contents (Elt F) → (⟨S_, .f32⟩ : BufTy).Contents (Elt F) → (⟨S524288, .f32⟩ : BufTy).Contents (Elt F)),
    unary main_v5 main_v6 (broadcastInDim S524288x1 ![0] bcast_S524288_S524288x1_0 : (⟨S524288, .f32⟩ : BufTy).Contents (Elt F) → (⟨S524288x1, .f32⟩ : BufTy).Contents (Elt F)),
    nullary main_cst_0 (constant S_ .f32 0x2B8CBCCC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S524288x1, .f32⟩) main_call0_v1) (broadcastInDim S524288x1 ![] bcast_S_S524288x1),
    TRef.binary (TRef.of (T := ⟨S524288x1, .f32⟩) main_call0_v1) (TRef.of (T := ⟨S524288x1, .f32⟩) main_v6) (TRef.of (T := ⟨S524288x1, .f32⟩) main_v7) maximumf,
    nullary main_cst_1 (constant S_ .f32 0x40C00000#32),
    unary main_cst_1 main_v8 (broadcastInDim S524288x1 ![] bcast_S_S524288x1 : (⟨S_, .f32⟩ : BufTy).Contents (Elt F) → (⟨S524288x1, .f32⟩ : BufTy).Contents (Elt F)),
    binary main_v7 main_v8 main_v9 (Host.divf : (⟨S524288x1, .f32⟩ : BufTy).Contents (Elt F) → (⟨S524288x1, .f32⟩ : BufTy).Contents (Elt F) → (⟨S524288x1, .f32⟩ : BufTy).Contents (Elt F)),
    nullary main_cst_2 (constant S_ .f32 0x43E00000#32),
    unary main_cst_2 main_v10 (broadcastInDim S524288x1 ![] bcast_S_S524288x1 : (⟨S_, .f32⟩ : BufTy).Contents (Elt F) → (⟨S524288x1, .f32⟩ : BufTy).Contents (Elt F)),
    binary main_v9 main_v10 main_v11 (minimumf : (⟨S524288x1, .f32⟩ : BufTy).Contents (Elt F) → (⟨S524288x1, .f32⟩ : BufTy).Contents (Elt F) → (⟨S524288x1, .f32⟩ : BufTy).Contents (Elt F)) ]

/-- Every entry on its block's grid, and the view as `[4, 4096, 4096]`. -/
abbrev opsB2 : List (HloOp τ sig (Elt F)) :=
  [ unary main_v11 main_v12 (broadcastInDim S524288x128 ![0, 1] bcast_S524288x1_S524288x128_0_1 : (⟨S524288x1, .f32⟩ : BufTy).Contents (Elt F) → (⟨S524288x128, .f32⟩ : BufTy).Contents (Elt F)),
    binary main_v3 main_v12 main_v13 (Host.divf : (⟨S524288x128, .f32⟩ : BufTy).Contents (Elt F) → (⟨S524288x128, .f32⟩ : BufTy).Contents (Elt F) → (⟨S524288x128, .f32⟩ : BufTy).Contents (Elt F)),
    TRef.unary (TRef.of (T := ⟨S524288x128, .f32⟩) main_v13) (TRef.of (T := ⟨S524288x128, .f32⟩) main_v14) Host.roundeven,
    nullary main_cst_3 (constant S_ .f32 0xC0C00000#32),
    nullary main_cst_4 (constant S_ .f32 0x40C00000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S524288x128, .f32⟩) main_call2_v1) (broadcastInDim S524288x128 ![] bcast_S_S524288x128),
    TRef.binary (TRef.of (T := ⟨S524288x128, .f32⟩) main_call2_v1) (TRef.of (T := ⟨S524288x128, .f32⟩) main_v14) (TRef.of (T := ⟨S524288x128, .f32⟩) main_call2_v2) maximumf,
    TRef.unary (TRef.of (T := ⟨S_, .f32⟩) main_cst_4) (TRef.of (T := ⟨S_, .f32⟩) main_call2_v3) id,
    TRef.unary (TRef.of (T := ⟨S_, .f32⟩) main_call2_v3) (TRef.of (T := ⟨S524288x128, .f32⟩) main_call2_v4) (broadcastInDim S524288x128 ![] bcast_S_S524288x128),
    TRef.binary (TRef.of (T := ⟨S524288x128, .f32⟩) main_call2_v4) (TRef.of (T := ⟨S524288x128, .f32⟩) main_call2_v2) (TRef.of (T := ⟨S524288x128, .f32⟩) main_v15) minimumf,
    unary main_v11 main_v16 (broadcastInDim S524288x128 ![0, 1] bcast_S524288x1_S524288x128_0_1 : (⟨S524288x1, .f32⟩ : BufTy).Contents (Elt F) → (⟨S524288x128, .f32⟩ : BufTy).Contents (Elt F)),
    binary main_v15 main_v16 main_v17 (mulf : (⟨S524288x128, .f32⟩ : BufTy).Contents (Elt F) → (⟨S524288x128, .f32⟩ : BufTy).Contents (Elt F) → (⟨S524288x128, .f32⟩ : BufTy).Contents (Elt F)),
    reshape main_v17 main_v18 rfl shapeCasts_S524288x128_S4x4096x4096 ]

/-- The three contractions, their sum, the bias. -/
abbrev opsC : List (HloOp τ sig (Elt F)) :=
  [ binary main_v18 main_arg1 main_v19 ((fun l r => Host.dotGeneral dot_S4x4096x4096_S4096x4096_S4x4096x4096_2_1_01_0_n_n none l r) : (⟨S4x4096x4096, .f32⟩ : BufTy).Contents (Elt F) → (⟨S4096x4096, .f32⟩ : BufTy).Contents (Elt F) → (⟨S4x4096x4096, .f32⟩ : BufTy).Contents (Elt F)),
    binary main_v18 main_arg3 main_v20 ((fun l r => Host.dotGeneral dot_S4x4096x4096_S64x4096_S4x4096x64_2_1_01_0_n_n none l r) : (⟨S4x4096x4096, .f32⟩ : BufTy).Contents (Elt F) → (⟨S64x4096, .f32⟩ : BufTy).Contents (Elt F) → (⟨S4x4096x64, .f32⟩ : BufTy).Contents (Elt F)),
    binary main_v20 main_arg4 main_v21 ((fun l r => Host.dotGeneral dot_S4x4096x64_S4096x64_S4x4096x4096_2_1_01_0_n_n none l r) : (⟨S4x4096x64, .f32⟩ : BufTy).Contents (Elt F) → (⟨S4096x64, .f32⟩ : BufTy).Contents (Elt F) → (⟨S4x4096x4096, .f32⟩ : BufTy).Contents (Elt F)),
    binary main_v19 main_v21 main_v22 (addf : (⟨S4x4096x4096, .f32⟩ : BufTy).Contents (Elt F) → (⟨S4x4096x4096, .f32⟩ : BufTy).Contents (Elt F) → (⟨S4x4096x4096, .f32⟩ : BufTy).Contents (Elt F)),
    unary main_arg5 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_v22 main_v24 main_v25 (addf : (⟨S4x4096x4096, .f32⟩ : BufTy).Contents (Elt F) → (⟨S4x4096x4096, .f32⟩ : BufTy).Contents (Elt F) → (⟨S4x4096x4096, .f32⟩ : BufTy).Contents (Elt F)) ]

theorem ops_eq : (ops : List (HloOp τ sig (Elt F))) = opsA ++ (opsB1 ++ (opsB2 ++ opsC)) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub .., reshape_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., reshape_bufs_sub .., binary_bufs_sub .., binary_bufs_sub .., binary_bufs_sub .., binary_bufs_sub .., unary_bufs_sub .., unary_bufs_sub .., binary_bufs_sub ..⟩

/-- Operations run one list after another are the lists' concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The four stages as functions -/

/-- The activations times the per-column factor, as 524288 blocks of 128. -/
def blocks (x0 : (⟨S4x4096x4096, .f32⟩ : BufTy).Contents (Elt F)) (x2 : (⟨S4096, .f32⟩ : BufTy).Contents (Elt F)) : (⟨S524288x128, .f32⟩ : BufTy).Contents (Elt F) :=
  shapeCast _ (mulf x0 (broadcastInDim S4x4096x4096 ![0, 1, 2] bcast_S1x1x4096_S4x4096x4096_0_1_2
    (broadcastInDim S1x1x4096 ![2] bcast_S4096_S1x1x4096_2 x2))) shapeCasts_S4x4096x4096_S524288x128

/-- Each block's step: `min (max ε (the block's largest magnitude) / 6) 448`. -/
def steps (y : (⟨S524288x128, .f32⟩ : BufTy).Contents (Elt F)) : (⟨S524288x1, .f32⟩ : BufTy).Contents (Elt F) :=
  minimumf (Host.divf (maximumf (broadcastInDim S524288x1 ![] bcast_S_S524288x1 (id (constant S_ .f32 0x2B8CBCCC#32)))
        (broadcastInDim S524288x1 ![0] bcast_S524288_S524288x1_0
          (Host.reduce FloatOps.maximumf (Host.absf y) (constant S_ .f32 0xFF800000#32) reducesTo_S524288x128_S524288_d1 h_S_)))
      (broadcastInDim S524288x1 ![] bcast_S_S524288x1 (constant S_ .f32 0x40C00000#32)))
    (broadcastInDim S524288x1 ![] bcast_S_S524288x1 (constant S_ .f32 0x43E00000#32))

/-- Every entry divided by its block's step, rounded, clipped to `[-6, 6]`, multiplied back; as `[4, 4096, 4096]`. -/
def regrid (y : (⟨S524288x128, .f32⟩ : BufTy).Contents (Elt F)) (t : (⟨S524288x1, .f32⟩ : BufTy).Contents (Elt F)) : (⟨S4x4096x4096, .f32⟩ : BufTy).Contents (Elt F) :=
  shapeCast _ (mulf (minimumf (broadcastInDim S524288x128 ![] bcast_S_S524288x128 (id (constant S_ .f32 0x40C00000#32)))
      (maximumf (broadcastInDim S524288x128 ![] bcast_S_S524288x128 (id (constant S_ .f32 0xC0C00000#32)))
        (Host.roundeven (Host.divf y (broadcastInDim S524288x128 ![0, 1] bcast_S524288x1_S524288x128_0_1 t)))))
    (broadcastInDim S524288x128 ![0, 1] bcast_S524288x1_S524288x128_0_1 t)) shapeCasts_S524288x128_S4x4096x4096

/-- The base product plus the low-rank product (down, then up) plus the bias. -/
def finish (q : (⟨S4x4096x4096, .f32⟩ : BufTy).Contents (Elt F)) (x1 : (⟨S4096x4096, .f32⟩ : BufTy).Contents (Elt F)) (x3 : (⟨S64x4096, .f32⟩ : BufTy).Contents (Elt F)) (x4 : (⟨S4096x64, .f32⟩ : BufTy).Contents (Elt F)) (x5 : (⟨S4096, .f32⟩ : BufTy).Contents (Elt F)) : (⟨S4x4096x4096, .f32⟩ : BufTy).Contents (Elt F) :=
  addf (addf (Host.dotGeneral dot_S4x4096x4096_S4096x4096_S4x4096x4096_2_1_01_0_n_n none q x1)
      (Host.dotGeneral dot_S4x4096x64_S4096x64_S4x4096x4096_2_1_01_0_n_n none
        (Host.dotGeneral dot_S4x4096x4096_S64x4096_S4x4096x64_2_1_01_0_n_n none q x3) x4))
    (broadcastInDim S4x4096x4096 ![0, 1, 2] bcast_S1x1x4096_S4x4096x4096_0_1_2 (broadcastInDim S1x1x4096 ![2] bcast_S4096_S1x1x4096_2 x5))

/-- The whole result as a function of the six arguments. -/
def result (x0 : (⟨S4x4096x4096, .f32⟩ : BufTy).Contents (Elt F)) (x1 : (⟨S4096x4096, .f32⟩ : BufTy).Contents (Elt F)) (x2 : (⟨S4096, .f32⟩ : BufTy).Contents (Elt F)) (x3 : (⟨S64x4096, .f32⟩ : BufTy).Contents (Elt F)) (x4 : (⟨S4096x64, .f32⟩ : BufTy).Contents (Elt F)) (x5 : (⟨S4096, .f32⟩ : BufTy).Contents (Elt F)) : (⟨S4x4096x4096, .f32⟩ : BufTy).Contents (Elt F) :=
  finish (regrid (blocks x0 x2) (steps (blocks x0 x2))) x1 x3 x4 x5

/-! ## What each segment leaves, over any contents before it

An operation inlined from a called function reads and writes its buffers through the buffer's declared tensor type;
at these literal buffers that type IS the buffer's own, so the transport either way is the identity. -/

theorem toBuf_main_v7 (v : (⟨S524288x1, .f32⟩ : BufTy).Contents (Elt F)) : (TRef.of (T := ⟨S524288x1, .f32⟩) main_v7 : TRef sig ⟨S524288x1, .f32⟩).toBuf v = v := rfl
theorem ofBuf_main_v6 (v : (⟨S524288x1, .f32⟩ : BufTy).Contents (Elt F)) : (TRef.of (T := ⟨S524288x1, .f32⟩) main_v6 : TRef sig ⟨S524288x1, .f32⟩).ofBuf v = v := rfl
theorem toBuf_main_call0_v1 (v : (⟨S524288x1, .f32⟩ : BufTy).Contents (Elt F)) : (TRef.of (T := ⟨S524288x1, .f32⟩) main_call0_v1 : TRef sig ⟨S524288x1, .f32⟩).toBuf v = v := rfl
theorem ofBuf_main_call0_v1 (v : (⟨S524288x1, .f32⟩ : BufTy).Contents (Elt F)) : (TRef.of (T := ⟨S524288x1, .f32⟩) main_call0_v1 : TRef sig ⟨S524288x1, .f32⟩).ofBuf v = v := rfl
theorem toBuf_main_call0_v0 (v : (⟨S_, .f32⟩ : BufTy).Contents (Elt F)) : (TRef.of (T := ⟨S_, .f32⟩) main_call0_v0 : TRef sig ⟨S_, .f32⟩).toBuf v = v := rfl
theorem ofBuf_main_call0_v0 (v : (⟨S_, .f32⟩ : BufTy).Contents (Elt F)) : (TRef.of (T := ⟨S_, .f32⟩) main_call0_v0 : TRef sig ⟨S_, .f32⟩).ofBuf v = v := rfl
theorem ofBuf_main_cst_0 (v : (⟨S_, .f32⟩ : BufTy).Contents (Elt F)) : (TRef.of (T := ⟨S_, .f32⟩) main_cst_0 : TRef sig ⟨S_, .f32⟩).ofBuf v = v := rfl

theorem afterA (V : Valuation τ sig (Elt F)) :
    after opsA V (Proc.devRef .tc main_v3) = blocks (V (Proc.devRef .tc main_arg0)) (V (Proc.devRef .tc main_arg2)) := by
  after_results_simp <;> rfl

theorem afterB1 (V : Valuation τ sig (Elt F)) :
    after opsB1 V (Proc.devRef .tc main_v11) = steps (V (Proc.devRef .tc main_v3)) := by
  after_results_simp
  rw [toBuf_main_v7, ofBuf_main_call0_v1, toBuf_main_call0_v1, ofBuf_main_call0_v0, toBuf_main_call0_v0, ofBuf_main_cst_0, ofBuf_main_v6]
  rfl

theorem afterB1_blocks (V : Valuation τ sig (Elt F)) :
    after opsB1 V (Proc.devRef .tc main_v3) = V (Proc.devRef .tc main_v3) := by
  after_results_simp

theorem afterB2 (V : Valuation τ sig (Elt F)) :
    after opsB2 V (Proc.devRef .tc main_v18) = regrid (V (Proc.devRef .tc main_v3)) (V (Proc.devRef .tc main_v11)) := by
  after_results_simp <;> rfl

theorem afterC (V : Valuation τ sig (Elt F)) :
    after opsC V (Proc.devRef .tc main_v25)
      = finish (V (Proc.devRef .tc main_v18)) (V (Proc.devRef .tc main_arg1)) (V (Proc.devRef .tc main_arg3))
          (V (Proc.devRef .tc main_arg4)) (V (Proc.devRef .tc main_arg5)) := by
  after_results_simp <;> rfl

/-! ## No segment writes an argument -/

theorem keptA_0 (V : Valuation τ sig (Elt F)) : after opsA V (Proc.devRef .tc main_arg0) = V (Proc.devRef .tc main_arg0) := by
  after_results_simp
theorem keptA_1 (V : Valuation τ sig (Elt F)) : after opsA V (Proc.devRef .tc main_arg1) = V (Proc.devRef .tc main_arg1) := by
  after_results_simp
theorem keptA_2 (V : Valuation τ sig (Elt F)) : after opsA V (Proc.devRef .tc main_arg2) = V (Proc.devRef .tc main_arg2) := by
  after_results_simp
theorem keptA_3 (V : Valuation τ sig (Elt F)) : after opsA V (Proc.devRef .tc main_arg3) = V (Proc.devRef .tc main_arg3) := by
  after_results_simp
theorem keptA_4 (V : Valuation τ sig (Elt F)) : after opsA V (Proc.devRef .tc main_arg4) = V (Proc.devRef .tc main_arg4) := by
  after_results_simp
theorem keptA_5 (V : Valuation τ sig (Elt F)) : after opsA V (Proc.devRef .tc main_arg5) = V (Proc.devRef .tc main_arg5) := by
  after_results_simp
theorem keptB1_0 (V : Valuation τ sig (Elt F)) : after opsB1 V (Proc.devRef .tc main_arg0) = V (Proc.devRef .tc main_arg0) := by
  after_results_simp
theorem keptB1_1 (V : Valuation τ sig (Elt F)) : after opsB1 V (Proc.devRef .tc main_arg1) = V (Proc.devRef .tc main_arg1) := by
  after_results_simp
theorem keptB1_2 (V : Valuation τ sig (Elt F)) : after opsB1 V (Proc.devRef .tc main_arg2) = V (Proc.devRef .tc main_arg2) := by
  after_results_simp
theorem keptB1_3 (V : Valuation τ sig (Elt F)) : after opsB1 V (Proc.devRef .tc main_arg3) = V (Proc.devRef .tc main_arg3) := by
  after_results_simp
theorem keptB1_4 (V : Valuation τ sig (Elt F)) : after opsB1 V (Proc.devRef .tc main_arg4) = V (Proc.devRef .tc main_arg4) := by
  after_results_simp
theorem keptB1_5 (V : Valuation τ sig (Elt F)) : after opsB1 V (Proc.devRef .tc main_arg5) = V (Proc.devRef .tc main_arg5) := by
  after_results_simp
theorem keptB2_0 (V : Valuation τ sig (Elt F)) : after opsB2 V (Proc.devRef .tc main_arg0) = V (Proc.devRef .tc main_arg0) := by
  after_results_simp
theorem keptB2_1 (V : Valuation τ sig (Elt F)) : after opsB2 V (Proc.devRef .tc main_arg1) = V (Proc.devRef .tc main_arg1) := by
  after_results_simp
theorem keptB2_2 (V : Valuation τ sig (Elt F)) : after opsB2 V (Proc.devRef .tc main_arg2) = V (Proc.devRef .tc main_arg2) := by
  after_results_simp
theorem keptB2_3 (V : Valuation τ sig (Elt F)) : after opsB2 V (Proc.devRef .tc main_arg3) = V (Proc.devRef .tc main_arg3) := by
  after_results_simp
theorem keptB2_4 (V : Valuation τ sig (Elt F)) : after opsB2 V (Proc.devRef .tc main_arg4) = V (Proc.devRef .tc main_arg4) := by
  after_results_simp
theorem keptB2_5 (V : Valuation τ sig (Elt F)) : after opsB2 V (Proc.devRef .tc main_arg5) = V (Proc.devRef .tc main_arg5) := by
  after_results_simp
theorem keptC_0 (V : Valuation τ sig (Elt F)) : after opsC V (Proc.devRef .tc main_arg0) = V (Proc.devRef .tc main_arg0) := by
  after_results_simp
theorem keptC_1 (V : Valuation τ sig (Elt F)) : after opsC V (Proc.devRef .tc main_arg1) = V (Proc.devRef .tc main_arg1) := by
  after_results_simp
theorem keptC_2 (V : Valuation τ sig (Elt F)) : after opsC V (Proc.devRef .tc main_arg2) = V (Proc.devRef .tc main_arg2) := by
  after_results_simp
theorem keptC_3 (V : Valuation τ sig (Elt F)) : after opsC V (Proc.devRef .tc main_arg3) = V (Proc.devRef .tc main_arg3) := by
  after_results_simp
theorem keptC_4 (V : Valuation τ sig (Elt F)) : after opsC V (Proc.devRef .tc main_arg4) = V (Proc.devRef .tc main_arg4) := by
  after_results_simp
theorem keptC_5 (V : Valuation τ sig (Elt F)) : after opsC V (Proc.devRef .tc main_arg5) = V (Proc.devRef .tc main_arg5) := by
  after_results_simp

theorem kept_0 (V : Valuation τ sig (Elt F)) : after ops V (Proc.devRef .tc main_arg0) = V (Proc.devRef .tc main_arg0) := by
  rw [ops_eq, after_append, after_append, after_append, keptC_0, keptB2_0, keptB1_0, keptA_0]
theorem kept_1 (V : Valuation τ sig (Elt F)) : after ops V (Proc.devRef .tc main_arg1) = V (Proc.devRef .tc main_arg1) := by
  rw [ops_eq, after_append, after_append, after_append, keptC_1, keptB2_1, keptB1_1, keptA_1]
theorem kept_2 (V : Valuation τ sig (Elt F)) : after ops V (Proc.devRef .tc main_arg2) = V (Proc.devRef .tc main_arg2) := by
  rw [ops_eq, after_append, after_append, after_append, keptC_2, keptB2_2, keptB1_2, keptA_2]
theorem kept_3 (V : Valuation τ sig (Elt F)) : after ops V (Proc.devRef .tc main_arg3) = V (Proc.devRef .tc main_arg3) := by
  rw [ops_eq, after_append, after_append, after_append, keptC_3, keptB2_3, keptB1_3, keptA_3]
theorem kept_4 (V : Valuation τ sig (Elt F)) : after ops V (Proc.devRef .tc main_arg4) = V (Proc.devRef .tc main_arg4) := by
  rw [ops_eq, after_append, after_append, after_append, keptC_4, keptB2_4, keptB1_4, keptA_4]
theorem kept_5 (V : Valuation τ sig (Elt F)) : after ops V (Proc.devRef .tc main_arg5) = V (Proc.devRef .tc main_arg5) := by
  rw [ops_eq, after_append, after_append, after_append, keptC_5, keptB2_5, keptB1_5, keptA_5]

/-! ## The composition -/

theorem after_ops (V : Valuation τ sig (Elt F)) :
    after ops V (Proc.devRef .tc main_v25)
      = result (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq, after_append, after_append, after_append, afterC, afterB2, afterB1, afterB1_blocks, afterA,
    keptB2_1, keptB2_3, keptB2_4, keptB2_5, keptB1_1, keptB1_3, keptB1_4, keptB1_5, keptA_1, keptA_3, keptA_4, keptA_5]
  rfl

/-- On every device, from any memory with zero counters: every weakly fair execution of @main terminates with the
    result array at `result` of the six argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v25).trans (after_ops _),
      (h c main_arg0).trans (kept_0 _), (h c main_arg1).trans (kept_1 _), (h c main_arg2).trans (kept_2 _),
      (h c main_arg3).trans (kept_3 _), (h c main_arg4).trans (kept_4 _), (h c main_arg5).trans (kept_5 _)⟩)
    (run_seq scopedRefs_eq scopedSems_eq defs main (fun _ => ops) main_eq (fun _ => ops_sub) m ρ)

end Cert.ReferenceIdeal.Stages

end
-- ==== Proof.RefBlocks.lean ====
/-
  The reference's first three stages, entry by entry.

  The block view of the scaled activations puts entry `l` of block `g` of row `(b, r)` at `(((b·4096 + r)·32 + g), l)`:
  both positions are the same place in row-major order. A block's step is `stepOf` of the fold of `max` over the
  block's 128 magnitudes. Putting entries on the grid is pointwise, each entry reading its own block's step; viewed
  back as `[4, 4096, 4096]`, entry `d` of a row is entry `d mod 128` of block `d / 128`.
-/
import proofs.«108394_j49211735277854_2_alg».proof.Proof.RefRun
import proofs.«108394_j49211735277854_2_alg».proof.Proof.Rows
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo
open Idealize.ShloMosaic.ValueIdx Cert.BlockQuant

/-- Block `g` of row `(b, r)` among the 524288 blocks. -/
def blockIx (b : Fin 4) (r : Fin 4096) (g : Fin 32) : Fin 524288 :=
  ⟨(b.val * 4096 + r.val) * 32 + g.val, by have := b.isLt; have := r.isLt; have := g.isLt; omega⟩

/-! ## Scaling and the block view -/

theorem blocks_apply (x0 : FVec Ideal S4x4096x4096 .f32) (x2 : FVec Ideal S4096 .f32) (b : Fin 4) (r : Fin 4096) (g : Fin 32) (l : Fin 128) :
    blocks (F := Ideal) x0 x2 (ix2 (blockIx b r g) l) = scaled x0 x2 b r (lane g l) := by
  unfold blocks
  refine (shapeCast_apply _ shapeCasts_S4x4096x4096_S524288x128 (ix2 (blockIx b r g) l) (ix3 b r (lane g l)) (by
    rewrite [Shape.rowMajor_val_three, Shape.rowMajor_val_two]
    have := b.isLt; have := r.isLt; have := g.isLt; have := l.isLt
    show (b.val * 4096 + r.val) * 4096 + (g.val * 128 + l.val) = ((b.val * 4096 + r.val) * 32 + g.val) * 128 + l.val
    omega)).trans ?_
  rw [mulf_apply]
  refine congrArg (x0 (ix3 b r (lane g l)) * ·) ?_
  refine (broadcastInDim_apply _ bcast_S1x1x4096_S4x4096x4096_0_1_2 _ (ix3 b r (lane g l)) (ix3 (0 : Fin 1) (0 : Fin 1) (lane g l)) (fun a => match a with
    | ⟨0, _⟩ => by show 0 = if (1 : Nat) = 1 then 0 else b.val; rw [if_pos rfl]
    | ⟨1, _⟩ => by show 0 = if (1 : Nat) = 1 then 0 else r.val; rw [if_pos rfl]
    | ⟨2, _⟩ => by show (lane g l).val = if (4096 : Nat) = 1 then 0 else (lane g l).val; rw [if_neg (by decide)])).trans ?_
  exact broadcastInDim_apply _ bcast_S4096_S1x1x4096_2 x2 (ix3 (0 : Fin 1) (0 : Fin 1) (lane g l)) (ix1 (lane g l)) (fun a => match a with
    | ⟨0, _⟩ => by show (lane g l).val = if (4096 : Nat) = 1 then 0 else (lane g l).val; rw [if_neg (by decide)])

/-! ## A block's step -/

/-- A scalar splat over the blocks' column reads the scalar. -/
theorem splat1_apply (v : FVec Ideal S_ .f32) (n : Fin 524288) :
    broadcastInDim S524288x1 ![] bcast_S_S524288x1 v (ix2 n (0 : Fin 1)) = v ix0 :=
  broadcastInDim_apply _ bcast_S_S524288x1 v (ix2 n (0 : Fin 1)) ix0 (fun a => a.elim0)

theorem splat128_apply (v : FVec Ideal S_ .f32) (n : Fin 524288) (l : Fin 128) :
    broadcastInDim S524288x128 ![] bcast_S_S524288x128 v (ix2 n l) = v ix0 :=
  broadcastInDim_apply _ bcast_S_S524288x128 v (ix2 n l) ix0 (fun a => a.elim0)

/-- The per-block column spread over a block's 128 entries reads the block's entry. -/
theorem spread_apply (t : FVec Ideal S524288x1 .f32) (n : Fin 524288) (l : Fin 128) :
    broadcastInDim S524288x128 ![0, 1] bcast_S524288x1_S524288x128_0_1 t (ix2 n l) = t (ix2 n (0 : Fin 1)) :=
  broadcastInDim_apply _ bcast_S524288x1_S524288x128_0_1 t (ix2 n l) (ix2 n (0 : Fin 1)) (fun a => match a with
    | ⟨0, _⟩ => by show n.val = if (524288 : Nat) = 1 then 0 else n.val; rw [if_neg (by decide)]
    | ⟨1, _⟩ => by show 0 = if (1 : Nat) = 1 then 0 else l.val; rw [if_pos rfl])

theorem reduces_blocks : S524288x128.Reduces [1] S524288 := by decide

/-- The largest magnitude of block `n`: the fold of `max` from `-∞` over its 128 entries. -/
theorem blockmax_apply (y : FVec Ideal S524288x128 .f32) (n : Fin 524288) :
    Host.reduce (FloatOps.maximumf (F := Ideal) (φ := .f32)) (Host.absf y) (constant (F := Ideal) S_ .f32 0xFF800000#32) reducesTo_S524288x128_S524288_d1 h_S_ (ix1 n)
      = blockMax fun l => max (y (ix2 n l)) (-(y (ix2 n l))) := by
  refine (Host.reduce_eq_fold_single (FloatOps.maximumf (F := Ideal) (φ := .f32)) (Host.absf y) (constant (F := Ideal) S_ .f32 0xFF800000#32)
    reducesTo_S524288x128_S524288_d1 reduces_blocks h_S_ (ix1 n)).trans ?_
  have e : (Host.absf y ∘ reduces_blocks.lift (ix1 n)) = fun l : Fin 128 => max (y (ix2 n l)) (-(y (ix2 n l))) := by
    funext l
    have el : reduces_blocks.lift (ix1 n) l = ix2 n l := funext fun a => Fin.ext (by
      match a with
      | ⟨0, _⟩ => rfl
      | ⟨1, _⟩ => rfl)
    show Host.absf y (reduces_blocks.lift (ix1 n) l) = _
    rw [el]; rfl
  rw [e]; rfl

/-- The host's quotient, entry by entry. -/
theorem hostDivf_apply {s : Shape} (a b : FVec Ideal s .f32) (i : s.Idx) : Host.divf a b i = Ideal.div (a i) (b i) := rfl

theorem steps_apply (y : FVec Ideal S524288x128 .f32) (n : Fin 524288) :
    steps (F := Ideal) y (ix2 n (0 : Fin 1)) = stepOf (blockMax fun l => max (y (ix2 n l)) (-(y (ix2 n l)))) := by
  have eb : broadcastInDim S524288x1 ![0] bcast_S524288_S524288x1_0
        (Host.reduce (FloatOps.maximumf (F := Ideal) (φ := .f32)) (Host.absf y) (constant (F := Ideal) S_ .f32 0xFF800000#32) reducesTo_S524288x128_S524288_d1 h_S_) (ix2 n (0 : Fin 1))
      = blockMax fun l => max (y (ix2 n l)) (-(y (ix2 n l))) :=
    (broadcastInDim_apply _ bcast_S524288_S524288x1_0 _ (ix2 n (0 : Fin 1)) (ix1 n) (fun a => match a with
      | ⟨0, _⟩ => by show n.val = if (524288 : Nat) = 1 then 0 else n.val; rw [if_neg (by decide)])).trans (blockmax_apply y n)
  unfold steps stepOf
  rw [minimumf_apply, hostDivf_apply, maximumf_apply, splat1_apply, splat1_apply, splat1_apply, eb]
  rfl

/-! ## Every entry on its block's grid, viewed as `[4, 4096, 4096]` again -/

theorem regrid_apply (y : FVec Ideal S524288x128 .f32) (t : FVec Ideal S524288x1 .f32) (b : Fin 4) (r : Fin 4096) (d : Fin 4096) :
    regrid (F := Ideal) y t (ix3 b r d)
      = onGrid (y (ix2 (blockIx b r (blockOf d)) ⟨d.val % 128, Nat.mod_lt _ (by decide)⟩)) (t (ix2 (blockIx b r (blockOf d)) (0 : Fin 1))) := by
  unfold regrid
  refine (shapeCast_apply _ shapeCasts_S524288x128_S4x4096x4096 (ix3 b r d) (ix2 (blockIx b r (blockOf d)) ⟨d.val % 128, Nat.mod_lt _ (by decide)⟩) (by
    rewrite [Shape.rowMajor_val_two, Shape.rowMajor_val_three]
    have := b.isLt; have := r.isLt; have := d.isLt
    show ((b.val * 4096 + r.val) * 32 + d.val / 128) * 128 + d.val % 128 = (b.val * 4096 + r.val) * 4096 + d.val
    omega)).trans ?_
  rw [mulf_apply, minimumf_apply, maximumf_apply, spread_apply, splat128_apply, splat128_apply]
  show min _ (max _ (Ideal.liftRound Ideal.roundHalfEven (Ideal.div _ _))) * _ = _
  rw [spread_apply]; rfl

end Cert.ReferenceIdeal.Stages

end
-- ==== Proof.RefContract.lean ====
/-
  The reference's last stage, entry by entry: each of the three contractions is, at an output entry, the sum over the
  contracted position of the products of the two operands' entries there; the bias is read at the output column.
-/
import proofs.«108394_j49211735277854_2_alg».proof.Proof.RefRun
import proofs.«108394_j49211735277854_2_alg».proof.Proof.Rows
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo
open Idealize.ShloMosaic.ValueIdx Cert.BlockQuant

/-! ## The three contractions -/

theorem base_apply_l0 (i : S4x4096x4096.Idx) (q : dot_S4x4096x4096_S4096x4096_S4x4096x4096_2_1_01_0_n_n.contr.Idx) : (dot_S4x4096x4096_S4096x4096_S4x4096x4096_2_1_01_0_n_n.lhsIdx i q 0).val = (i 0).val := by
  unfold DotDims.lhsIdx
  rw [dif_neg (show ¬(0 : Fin S4x4096x4096.rank) ∈ dot_S4x4096x4096_S4096x4096_S4x4096x4096_2_1_01_0_n_n.lhsBatch by decide), dif_pos (show (0 : Fin S4x4096x4096.rank) ∈ dot_S4x4096x4096_S4096x4096_S4x4096x4096_2_1_01_0_n_n.lhsNonContracting by decide)]
  rfl
theorem base_apply_l1 (i : S4x4096x4096.Idx) (q : dot_S4x4096x4096_S4096x4096_S4x4096x4096_2_1_01_0_n_n.contr.Idx) : (dot_S4x4096x4096_S4096x4096_S4x4096x4096_2_1_01_0_n_n.lhsIdx i q 1).val = (i 1).val := by
  unfold DotDims.lhsIdx
  rw [dif_neg (show ¬(1 : Fin S4x4096x4096.rank) ∈ dot_S4x4096x4096_S4096x4096_S4x4096x4096_2_1_01_0_n_n.lhsBatch by decide), dif_pos (show (1 : Fin S4x4096x4096.rank) ∈ dot_S4x4096x4096_S4096x4096_S4x4096x4096_2_1_01_0_n_n.lhsNonContracting by decide)]
  rfl
theorem base_apply_l2 (i : S4x4096x4096.Idx) (q : dot_S4x4096x4096_S4096x4096_S4x4096x4096_2_1_01_0_n_n.contr.Idx) : (dot_S4x4096x4096_S4096x4096_S4x4096x4096_2_1_01_0_n_n.lhsIdx i q 2).val = (q ⟨0, by decide⟩).val :=
  dot_S4x4096x4096_S4096x4096_S4x4096x4096_2_1_01_0_n_n.lhsIdx_val_of_single rfl i q
theorem base_apply_r0 (i : S4x4096x4096.Idx) (q : dot_S4x4096x4096_S4096x4096_S4x4096x4096_2_1_01_0_n_n.contr.Idx) : (dot_S4x4096x4096_S4096x4096_S4x4096x4096_2_1_01_0_n_n.rhsIdx i q 0).val = (i 2).val := by
  unfold DotDims.rhsIdx
  rw [dif_neg (show ¬(0 : Fin S4096x4096.rank) ∈ dot_S4x4096x4096_S4096x4096_S4x4096x4096_2_1_01_0_n_n.rhsBatch by decide), dif_pos (show (0 : Fin S4096x4096.rank) ∈ dot_S4x4096x4096_S4096x4096_S4x4096x4096_2_1_01_0_n_n.rhsNonContracting by decide)]
  rfl
theorem base_apply_r1 (i : S4x4096x4096.Idx) (q : dot_S4x4096x4096_S4096x4096_S4x4096x4096_2_1_01_0_n_n.contr.Idx) : (dot_S4x4096x4096_S4096x4096_S4x4096x4096_2_1_01_0_n_n.rhsIdx i q 1).val = (q ⟨0, by decide⟩).val :=
  dot_S4x4096x4096_S4096x4096_S4x4096x4096_2_1_01_0_n_n.rhsIdx_val_of_single rfl i q

/-- The base product: over the 4096 input positions, activation times weight. -/
theorem base_apply (l : FVec Ideal S4x4096x4096 .f32) (r : FVec Ideal S4096x4096 .f32) (b : Fin 4) (t : Fin 4096) (o : Fin 4096) :
    Host.dotGeneral (F := Ideal) (φ₁ := .f32) (φ₂ := .f32) dot_S4x4096x4096_S4096x4096_S4x4096x4096_2_1_01_0_n_n none l r (ix3 b t o) = ∑ k : Fin 4096, l (ix3 b t k) * r (ix2 o k) := by
  simp only [Host.dotGeneral]
  rw [Ideal.dotGeneral_apply, ← Equiv.sum_comp (contrEquiv1 dot_S4x4096x4096_S4096x4096_S4x4096x4096_2_1_01_0_n_n 4096 rfl rfl).symm]
  refine Finset.sum_congr rfl fun k _ => ?_
  have hk := contrEquiv1_symm_val dot_S4x4096x4096_S4096x4096_S4x4096x4096_2_1_01_0_n_n 4096 rfl rfl k
  have el : dot_S4x4096x4096_S4096x4096_S4x4096x4096_2_1_01_0_n_n.lhsIdx (ix3 b t o) ((contrEquiv1 dot_S4x4096x4096_S4096x4096_S4x4096x4096_2_1_01_0_n_n 4096 rfl rfl).symm k) = ix3 b t k :=
    funext fun a => Fin.ext (by
      match a with
      | ⟨0, _⟩ => exact base_apply_l0 _ _
      | ⟨1, _⟩ => exact base_apply_l1 _ _
      | ⟨2, _⟩ => exact (base_apply_l2 _ _).trans hk)
  have er : dot_S4x4096x4096_S4096x4096_S4x4096x4096_2_1_01_0_n_n.rhsIdx (ix3 b t o) ((contrEquiv1 dot_S4x4096x4096_S4096x4096_S4x4096x4096_2_1_01_0_n_n 4096 rfl rfl).symm k) = ix2 o k :=
    funext fun a => Fin.ext (by
      match a with
      | ⟨0, _⟩ => exact base_apply_r0 _ _
      | ⟨1, _⟩ => exact (base_apply_r1 _ _).trans hk)
  rw [el, er]

theorem down_apply_l0 (i : S4x4096x64.Idx) (q : dot_S4x4096x4096_S64x4096_S4x4096x64_2_1_01_0_n_n.contr.Idx) : (dot_S4x4096x4096_S64x4096_S4x4096x64_2_1_01_0_n_n.lhsIdx i q 0).val = (i 0).val := by
  unfold DotDims.lhsIdx
  rw [dif_neg (show ¬(0 : Fin S4x4096x4096.rank) ∈ dot_S4x4096x4096_S64x4096_S4x4096x64_2_1_01_0_n_n.lhsBatch by decide), dif_pos (show (0 : Fin S4x4096x4096.rank) ∈ dot_S4x4096x4096_S64x4096_S4x4096x64_2_1_01_0_n_n.lhsNonContracting by decide)]
  rfl
theorem down_apply_l1 (i : S4x4096x64.Idx) (q : dot_S4x4096x4096_S64x4096_S4x4096x64_2_1_01_0_n_n.contr.Idx) : (dot_S4x4096x4096_S64x4096_S4x4096x64_2_1_01_0_n_n.lhsIdx i q 1).val = (i 1).val := by
  unfold DotDims.lhsIdx
  rw [dif_neg (show ¬(1 : Fin S4x4096x4096.rank) ∈ dot_S4x4096x4096_S64x4096_S4x4096x64_2_1_01_0_n_n.lhsBatch by decide), dif_pos (show (1 : Fin S4x4096x4096.rank) ∈ dot_S4x4096x4096_S64x4096_S4x4096x64_2_1_01_0_n_n.lhsNonContracting by decide)]
  rfl
theorem down_apply_l2 (i : S4x4096x64.Idx) (q : dot_S4x4096x4096_S64x4096_S4x4096x64_2_1_01_0_n_n.contr.Idx) : (dot_S4x4096x4096_S64x4096_S4x4096x64_2_1_01_0_n_n.lhsIdx i q 2).val = (q ⟨0, by decide⟩).val :=
  dot_S4x4096x4096_S64x4096_S4x4096x64_2_1_01_0_n_n.lhsIdx_val_of_single rfl i q
theorem down_apply_r0 (i : S4x4096x64.Idx) (q : dot_S4x4096x4096_S64x4096_S4x4096x64_2_1_01_0_n_n.contr.Idx) : (dot_S4x4096x4096_S64x4096_S4x4096x64_2_1_01_0_n_n.rhsIdx i q 0).val = (i 2).val := by
  unfold DotDims.rhsIdx
  rw [dif_neg (show ¬(0 : Fin S64x4096.rank) ∈ dot_S4x4096x4096_S64x4096_S4x4096x64_2_1_01_0_n_n.rhsBatch by decide), dif_pos (show (0 : Fin S64x4096.rank) ∈ dot_S4x4096x4096_S64x4096_S4x4096x64_2_1_01_0_n_n.rhsNonContracting by decide)]
  rfl
theorem down_apply_r1 (i : S4x4096x64.Idx) (q : dot_S4x4096x4096_S64x4096_S4x4096x64_2_1_01_0_n_n.contr.Idx) : (dot_S4x4096x4096_S64x4096_S4x4096x64_2_1_01_0_n_n.rhsIdx i q 1).val = (q ⟨0, by decide⟩).val :=
  dot_S4x4096x4096_S64x4096_S4x4096x64_2_1_01_0_n_n.rhsIdx_val_of_single rfl i q

/-- The low-rank product, down: over the 4096 input positions, activation times the first factor. -/
theorem down_apply (l : FVec Ideal S4x4096x4096 .f32) (r : FVec Ideal S64x4096 .f32) (b : Fin 4) (t : Fin 4096) (o : Fin 64) :
    Host.dotGeneral (F := Ideal) (φ₁ := .f32) (φ₂ := .f32) dot_S4x4096x4096_S64x4096_S4x4096x64_2_1_01_0_n_n none l r (ix3 b t o) = ∑ k : Fin 4096, l (ix3 b t k) * r (ix2 o k) := by
  simp only [Host.dotGeneral]
  rw [Ideal.dotGeneral_apply, ← Equiv.sum_comp (contrEquiv1 dot_S4x4096x4096_S64x4096_S4x4096x64_2_1_01_0_n_n 4096 rfl rfl).symm]
  refine Finset.sum_congr rfl fun k _ => ?_
  have hk := contrEquiv1_symm_val dot_S4x4096x4096_S64x4096_S4x4096x64_2_1_01_0_n_n 4096 rfl rfl k
  have el : dot_S4x4096x4096_S64x4096_S4x4096x64_2_1_01_0_n_n.lhsIdx (ix3 b t o) ((contrEquiv1 dot_S4x4096x4096_S64x4096_S4x4096x64_2_1_01_0_n_n 4096 rfl rfl).symm k) = ix3 b t k :=
    funext fun a => Fin.ext (by
      match a with
      | ⟨0, _⟩ => exact down_apply_l0 _ _
      | ⟨1, _⟩ => exact down_apply_l1 _ _
      | ⟨2, _⟩ => exact (down_apply_l2 _ _).trans hk)
  have er : dot_S4x4096x4096_S64x4096_S4x4096x64_2_1_01_0_n_n.rhsIdx (ix3 b t o) ((contrEquiv1 dot_S4x4096x4096_S64x4096_S4x4096x64_2_1_01_0_n_n 4096 rfl rfl).symm k) = ix2 o k :=
    funext fun a => Fin.ext (by
      match a with
      | ⟨0, _⟩ => exact down_apply_r0 _ _
      | ⟨1, _⟩ => exact (down_apply_r1 _ _).trans hk)
  rw [el, er]

theorem up_apply_l0 (i : S4x4096x4096.Idx) (q : dot_S4x4096x64_S4096x64_S4x4096x4096_2_1_01_0_n_n.contr.Idx) : (dot_S4x4096x64_S4096x64_S4x4096x4096_2_1_01_0_n_n.lhsIdx i q 0).val = (i 0).val := by
  unfold DotDims.lhsIdx
  rw [dif_neg (show ¬(0 : Fin S4x4096x64.rank) ∈ dot_S4x4096x64_S4096x64_S4x4096x4096_2_1_01_0_n_n.lhsBatch by decide), dif_pos (show (0 : Fin S4x4096x64.rank) ∈ dot_S4x4096x64_S4096x64_S4x4096x4096_2_1_01_0_n_n.lhsNonContracting by decide)]
  rfl
theorem up_apply_l1 (i : S4x4096x4096.Idx) (q : dot_S4x4096x64_S4096x64_S4x4096x4096_2_1_01_0_n_n.contr.Idx) : (dot_S4x4096x64_S4096x64_S4x4096x4096_2_1_01_0_n_n.lhsIdx i q 1).val = (i 1).val := by
  unfold DotDims.lhsIdx
  rw [dif_neg (show ¬(1 : Fin S4x4096x64.rank) ∈ dot_S4x4096x64_S4096x64_S4x4096x4096_2_1_01_0_n_n.lhsBatch by decide), dif_pos (show (1 : Fin S4x4096x64.rank) ∈ dot_S4x4096x64_S4096x64_S4x4096x4096_2_1_01_0_n_n.lhsNonContracting by decide)]
  rfl
theorem up_apply_l2 (i : S4x4096x4096.Idx) (q : dot_S4x4096x64_S4096x64_S4x4096x4096_2_1_01_0_n_n.contr.Idx) : (dot_S4x4096x64_S4096x64_S4x4096x4096_2_1_01_0_n_n.lhsIdx i q 2).val = (q ⟨0, by decide⟩).val :=
  dot_S4x4096x64_S4096x64_S4x4096x4096_2_1_01_0_n_n.lhsIdx_val_of_single rfl i q
theorem up_apply_r0 (i : S4x4096x4096.Idx) (q : dot_S4x4096x64_S4096x64_S4x4096x4096_2_1_01_0_n_n.contr.Idx) : (dot_S4x4096x64_S4096x64_S4x4096x4096_2_1_01_0_n_n.rhsIdx i q 0).val = (i 2).val := by
  unfold DotDims.rhsIdx
  rw [dif_neg (show ¬(0 : Fin S4096x64.rank) ∈ dot_S4x4096x64_S4096x64_S4x4096x4096_2_1_01_0_n_n.rhsBatch by decide), dif_pos (show (0 : Fin S4096x64.rank) ∈ dot_S4x4096x64_S4096x64_S4x4096x4096_2_1_01_0_n_n.rhsNonContracting by decide)]
  rfl
theorem up_apply_r1 (i : S4x4096x4096.Idx) (q : dot_S4x4096x64_S4096x64_S4x4096x4096_2_1_01_0_n_n.contr.Idx) : (dot_S4x4096x64_S4096x64_S4x4096x4096_2_1_01_0_n_n.rhsIdx i q 1).val = (q ⟨0, by decide⟩).val :=
  dot_S4x4096x64_S4096x64_S4x4096x4096_2_1_01_0_n_n.rhsIdx_val_of_single rfl i q

/-- The low-rank product, up: over the 64 ranks, the down product times the second factor. -/
theorem up_apply (l : FVec Ideal S4x4096x64 .f32) (r : FVec Ideal S4096x64 .f32) (b : Fin 4) (t : Fin 4096) (o : Fin 4096) :
    Host.dotGeneral (F := Ideal) (φ₁ := .f32) (φ₂ := .f32) dot_S4x4096x64_S4096x64_S4x4096x4096_2_1_01_0_n_n none l r (ix3 b t o) = ∑ k : Fin 64, l (ix3 b t k) * r (ix2 o k) := by
  simp only [Host.dotGeneral]
  rw [Ideal.dotGeneral_apply, ← Equiv.sum_comp (contrEquiv1 dot_S4x4096x64_S4096x64_S4x4096x4096_2_1_01_0_n_n 64 rfl rfl).symm]
  refine Finset.sum_congr rfl fun k _ => ?_
  have hk := contrEquiv1_symm_val dot_S4x4096x64_S4096x64_S4x4096x4096_2_1_01_0_n_n 64 rfl rfl k
  have el : dot_S4x4096x64_S4096x64_S4x4096x4096_2_1_01_0_n_n.lhsIdx (ix3 b t o) ((contrEquiv1 dot_S4x4096x64_S4096x64_S4x4096x4096_2_1_01_0_n_n 64 rfl rfl).symm k) = ix3 b t k :=
    funext fun a => Fin.ext (by
      match a with
      | ⟨0, _⟩ => exact up_apply_l0 _ _
      | ⟨1, _⟩ => exact up_apply_l1 _ _
      | ⟨2, _⟩ => exact (up_apply_l2 _ _).trans hk)
  have er : dot_S4x4096x64_S4096x64_S4x4096x4096_2_1_01_0_n_n.rhsIdx (ix3 b t o) ((contrEquiv1 dot_S4x4096x64_S4096x64_S4x4096x4096_2_1_01_0_n_n 64 rfl rfl).symm k) = ix2 o k :=
    funext fun a => Fin.ext (by
      match a with
      | ⟨0, _⟩ => exact up_apply_r0 _ _
      | ⟨1, _⟩ => exact (up_apply_r1 _ _).trans hk)
  rw [el, er]

theorem finish_apply (q : FVec Ideal S4x4096x4096 .f32) (x1 : FVec Ideal S4096x4096 .f32) (x3 : FVec Ideal S64x4096 .f32) (x4 : FVec Ideal S4096x64 .f32) (x5 : FVec Ideal S4096 .f32)
    (b : Fin 4) (r : Fin 4096) (o : Fin 4096) :
    finish (F := Ideal) q x1 x3 x4 x5 (ix3 b r o)
      = ((∑ d : Fin 4096, q (ix3 b r d) * x1 (ix2 o d))
          + ∑ k : Fin 64, (∑ d : Fin 4096, q (ix3 b r d) * x3 (ix2 k d)) * x4 (ix2 o k)) + x5 (ix1 o) := by
  unfold finish
  rw [addf_apply, addf_apply, base_apply, up_apply]
  have eb : broadcastInDim S4x4096x4096 ![0, 1, 2] bcast_S1x1x4096_S4x4096x4096_0_1_2 (broadcastInDim S1x1x4096 ![2] bcast_S4096_S1x1x4096_2 x5) (ix3 b r o) = x5 (ix1 o) :=
    (broadcastInDim_apply _ bcast_S1x1x4096_S4x4096x4096_0_1_2 _ (ix3 b r o) (ix3 (0 : Fin 1) (0 : Fin 1) o) (fun a => match a with
      | ⟨0, _⟩ => by show 0 = if (1 : Nat) = 1 then 0 else b.val; rw [if_pos rfl]
      | ⟨1, _⟩ => by show 0 = if (1 : Nat) = 1 then 0 else r.val; rw [if_pos rfl]
      | ⟨2, _⟩ => by show o.val = if (4096 : Nat) = 1 then 0 else o.val; rw [if_neg (by decide)])).trans
    (broadcastInDim_apply _ bcast_S4096_S1x1x4096_2 x5 (ix3 (0 : Fin 1) (0 : Fin 1) o) (ix1 o) (fun a => match a with
      | ⟨0, _⟩ => by show o.val = if (4096 : Nat) = 1 then 0 else o.val; rw [if_neg (by decide)]))
  rw [eb]
  refine congrArg (· + x5 (ix1 o)) (congrArg (_ + ·) (Finset.sum_congr rfl fun k _ => ?_))
  rw [down_apply]

end Cert.ReferenceIdeal.Stages

end
-- ==== Proof.RefValue.lean ====
/-
  The reference's result, entry by entry, is the result with the correction added after the base product: the
  regridded blocks of the scaled activations are the quantized rows, and the last stage contracts them.
-/
import proofs.«108394_j49211735277854_2_alg».proof.Proof.RefBlocks
import proofs.«108394_j49211735277854_2_alg».proof.Proof.RefContract

noncomputable section

namespace Cert.ReferenceIdeal.Stages

open Cert.ReferenceIdeal Cert.ReferenceIdeal.Gen Idealize.ShloMosaic Idealize.ShloMosaic.TcCoe Idealize.SL.Sem Idealize.ShloMosaic.StableHlo
open Idealize.ShloMosaic.ValueIdx Cert.BlockQuant

/-! ## The whole -/

/-- The reference's result at `(b, r, o)` is the corrected result there. -/
theorem result_apply (x0 : FVec Ideal S4x4096x4096 .f32) (x1 : FVec Ideal S4096x4096 .f32) (x2 : FVec Ideal S4096 .f32) (x3 : FVec Ideal S64x4096 .f32) (x4 : FVec Ideal S4096x64 .f32) (x5 : FVec Ideal S4096 .f32)
    (b : Fin 4) (r : Fin 4096) (o : Fin 4096) :
    result (F := Ideal) x0 x1 x2 x3 x4 x5 (ix3 b r o) = corrected x0 x1 x2 x3 x4 x5 b r o := by
  have hq : ∀ d : Fin 4096, regrid (F := Ideal) (blocks x0 x2) (steps (blocks x0 x2)) (ix3 b r d) = quantized x0 x2 b r d := fun d => by
    rw [regrid_apply, steps_apply, blocks_apply, lane_blockOf]
    refine congrArg (onGrid (scaled x0 x2 b r d)) ?_
    show stepOf (blockMax _) = stepOf (blockMax _)
    refine congrArg stepOf (congrArg blockMax (funext fun l => ?_))
    rw [blocks_apply]
  unfold result corrected
  rw [finish_apply]
  simp only [hq]

end Cert.ReferenceIdeal.Stages

end
-- ==== Proof.Algebra.lean ====
/-
  The mathematics that joins the two arrangements of the last step (Spec.lean), with no program in sight.

  Over the reals the two arrangements are one number: distribute `q d` over `w o d + ∑ k, B o k · A k d` and exchange
  the two finite sums. Over the extended reals distributivity fails at the infinities, so the law is proved where
  every entry is a real. The six inputs are reals by hypothesis. A quantized entry is a real whatever went in: the
  clipped count `min 6 (max (-6) y)` lies between the reals `-6` and `6` for every extended real `y`, and the step
  is a real, being built from the largest of 128 real magnitudes by `max` with a real, division by `6` and `min`
  with `448`.

  The float literals are evaluated here, once: `6`, `-6`, `448`, the bottom element, and the fact that the
  pattern nearest `1e-12` denotes some real (its value is never needed).
-/
import proofs.«108394_j49211735277854_2_alg».proof.Proof.Spec
import Mathlib.Data.EReal.Operations
import Mathlib.Algebra.BigOperators.Ring.Finset
import Mathlib.Data.Finset.Fold

noncomputable section

namespace Cert.BlockQuant

open Idealize.ShloMosaic Idealize.ShloMosaic.ValueIdx

/-! ### The float literals, as the extended reals they denote -/

theorem ofBits_six : Ideal.ofBits .f32 0x40C00000#32 = ((6 : ℝ) : EReal) := by
  simp [Ideal.ofBits, Ideal.ieee, -EReal.coe_mul]; norm_num

theorem ofBits_negSix : Ideal.ofBits .f32 0xC0C00000#32 = ((-6 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

theorem ofBits_eps : ∃ e : ℝ, Ideal.ofBits .f32 0x2B8CBCCC#32 = (e : EReal) := by
  simp [Ideal.ofBits, Ideal.ieee, -EReal.coe_mul]

/-! ### Which extended reals are reals -/

/-- An extended real between two reals is a real. -/
theorem real_of_between {a : EReal} {lo hi : ℝ} (h1 : (lo : EReal) ≤ a) (h2 : a ≤ (hi : EReal)) :
    ∃ r : ℝ, a = (r : EReal) := by
  have hbot : a ≠ ⊥ := fun h => by
    rw [h] at h1; exact absurd (le_bot_iff.1 h1) (EReal.coe_ne_bot lo)
  have htop : a ≠ ⊤ := fun h => by
    rw [h] at h2; exact absurd (top_le_iff.1 h2) (EReal.coe_ne_top hi)
  exact ⟨a.toReal, (EReal.coe_toReal htop hbot).symm⟩

theorem real_max {a b : EReal} (ha : ∃ r : ℝ, a = (r : EReal)) (hb : ∃ r : ℝ, b = (r : EReal)) :
    ∃ r : ℝ, max a b = (r : EReal) := by
  rcases max_choice a b with h | h <;> rw [h] <;> assumption

theorem real_min {a b : EReal} (ha : ∃ r : ℝ, a = (r : EReal)) (hb : ∃ r : ℝ, b = (r : EReal)) :
    ∃ r : ℝ, min a b = (r : EReal) := by
  rcases min_choice a b with h | h <;> rw [h] <;> assumption

theorem real_neg {a : EReal} (ha : ∃ r : ℝ, a = (r : EReal)) : ∃ r : ℝ, -a = (r : EReal) := by
  obtain ⟨r, rfl⟩ := ha; exact ⟨-r, (EReal.coe_neg r).symm⟩

theorem real_mul {a b : EReal} (ha : ∃ r : ℝ, a = (r : EReal)) (hb : ∃ r : ℝ, b = (r : EReal)) :
    ∃ r : ℝ, a * b = (r : EReal) := by
  obtain ⟨ra, rfl⟩ := ha; obtain ⟨rb, rfl⟩ := hb; exact ⟨ra * rb, (EReal.coe_mul ra rb).symm⟩

/-- The largest of finitely many reals, at least one of them, is a real: it is at least one entry, so it is not
    the bottom element; and the top element is below neither the bottom element nor any entry. -/
theorem real_fold_max {ι : Type*} (s : Finset ι) (hs : s.Nonempty) (f : ι → EReal)
    (hf : ∀ i ∈ s, ∃ r : ℝ, f i = (r : EReal)) : ∃ r : ℝ, s.fold max ⊥ f = (r : EReal) := by
  have hbot : s.fold max ⊥ f ≠ ⊥ := by
    obtain ⟨i, hi⟩ := hs
    obtain ⟨r, hr⟩ := hf i hi
    have hle : (r : EReal) ≤ s.fold max ⊥ f := (Finset.le_fold_max _).2 (Or.inr ⟨i, hi, hr ▸ le_rfl⟩)
    intro h; rw [h] at hle; exact absurd (le_bot_iff.1 hle) (EReal.coe_ne_bot r)
  have htop : s.fold max ⊥ f ≠ ⊤ := by
    intro h
    rcases (Finset.le_fold_max _).1 h.ge with h0 | ⟨i, hi, h1⟩
    · exact absurd (top_le_iff.1 h0) bot_ne_top
    · obtain ⟨r, hr⟩ := hf i hi
      rw [hr] at h1; exact absurd (top_le_iff.1 h1) (EReal.coe_ne_top r)
  exact ⟨_, (EReal.coe_toReal htop hbot).symm⟩

theorem real_blockMax (f : Fin 128 → EReal) (hf : ∀ l, ∃ r : ℝ, f l = (r : EReal)) :
    ∃ r : ℝ, blockMax f = (r : EReal) := by
  rw [blockMax, ofBits_negInf]
  exact real_fold_max _ ⟨0, Finset.mem_univ _⟩ f fun l _ => hf l

theorem real_stepOf {a : EReal} (ha : ∃ r : ℝ, a = (r : EReal)) : ∃ r : ℝ, stepOf a = (r : EReal) := by
  rw [stepOf, ofBits_six, ofBits_448, Ideal.div_coe (by norm_num : (6 : ℝ) ≠ 0)]
  exact real_min (real_mul (real_max ofBits_eps ha) ⟨_, rfl⟩) ⟨_, rfl⟩

/-- A value put on a grid of real step is a real, whatever the value: the clipped count lies between `-6` and
    `6`. -/
theorem real_onGrid (v : EReal) {t : EReal} (ht : ∃ r : ℝ, t = (r : EReal)) : ∃ r : ℝ, onGrid v t = (r : EReal) := by
  rw [onGrid, ofBits_six, ofBits_negSix]
  refine real_mul (real_of_between (lo := -6) (hi := 6) ?_ (min_le_left _ _)) ht
  exact le_min (by exact_mod_cast (by norm_num : (-6 : ℝ) ≤ 6)) (le_max_left _ _)

section Quantized
variable (x : Sact.Idx → EReal) (s : Svec.Idx → EReal)
  (hx : ∀ i, ∃ r : ℝ, x i = (r : EReal)) (hs : ∀ i, ∃ r : ℝ, s i = (r : EReal))
include hx hs

theorem real_scaled (b : Fin 4) (r : Fin 4096) (d : Fin 4096) : ∃ t : ℝ, scaled x s b r d = (t : EReal) :=
  real_mul (hx _) (hs _)

theorem real_stepAt (b : Fin 4) (r : Fin 4096) (g : Fin 32) : ∃ t : ℝ, stepAt x s b r g = (t : EReal) :=
  real_stepOf (real_blockMax _ fun l =>
    real_max (real_scaled x s hx hs b r _) (real_neg (real_scaled x s hx hs b r _)))

theorem real_quantized (b : Fin 4) (r : Fin 4096) (d : Fin 4096) : ∃ t : ℝ, quantized x s b r d = (t : EReal) :=
  real_onGrid _ (real_stepAt x s hx hs b r _)

end Quantized

/-! ### The law, over the reals and then over the extended reals that are reals -/

/-- Over the reals: distribute, split the sum, exchange the two sums. -/
theorem real_law {D K : Type*} [Fintype D] [Fintype K] (q w : D → ℝ) (A : K → D → ℝ) (B : K → ℝ) :
    ∑ d, q d * (w d + ∑ k, B k * A k d) = (∑ d, q d * w d) + ∑ k, (∑ d, q d * A k d) * B k := by
  simp only [mul_add, Finset.sum_add_distrib, Finset.mul_sum, Finset.sum_mul]
  congr 1
  rw [Finset.sum_comm]
  exact Finset.sum_congr rfl fun k _ => Finset.sum_congr rfl fun d _ => by ring

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law for extended reals all of which are reals. -/
theorem ereal_law {D K : Type*} [Fintype D] [Fintype K] (q w : D → EReal) (A : K → D → EReal) (B : K → EReal)
    (hq : ∀ d, ∃ r : ℝ, q d = (r : EReal)) (hw : ∀ d, ∃ r : ℝ, w d = (r : EReal))
    (hA : ∀ k d, ∃ r : ℝ, A k d = (r : EReal)) (hB : ∀ k, ∃ r : ℝ, B k = (r : EReal)) :
    ∑ d, q d * (w d + ∑ k, B k * A k d) = (∑ d, q d * w d) + ∑ k, (∑ d, q d * A k d) * B k := by
  choose q' hq using hq
  choose w' hw using hw
  choose A' hA using hA
  choose B' hB using hB
  simp only [hq, hw, hA, hB, ← EReal.coe_mul, ← coe_sum, ← EReal.coe_add]
  exact congrArg _ (real_law q' w' A' B')

/-- The two arrangements of the last step agree when the inputs are reals. -/
theorem folded_eq_corrected (x : Sact.Idx → EReal) (w : Ssq.Idx → EReal) (s : Svec.Idx → EReal) (A : Sdown.Idx → EReal)
    (B : Sup.Idx → EReal) (bias : Svec.Idx → EReal)
    (hx : ∀ i, ∃ r : ℝ, x i = (r : EReal)) (hw : ∀ i, ∃ r : ℝ, w i = (r : EReal)) (hs : ∀ i, ∃ r : ℝ, s i = (r : EReal))
    (hA : ∀ i, ∃ r : ℝ, A i = (r : EReal)) (hB : ∀ i, ∃ r : ℝ, B i = (r : EReal))
    (b : Fin 4) (r : Fin 4096) (o : Fin 4096) :
    folded x w s A B bias b r o = corrected x w s A B bias b r o := by
  rw [folded, corrected]
  exact congrArg (· + bias (ix1 o))
    (ereal_law (fun d => quantized x s b r d) (fun d => w (ix2 o d)) (fun k d => A (ix2 k d)) (fun k => B (ix2 o k))
      (fun d => real_quantized x s hx hs b r d) (fun d => hw _) (fun k d => hA _) (fun k => hB _))

end Cert.BlockQuant

end
-- ==== Proof.FiniteInputs.lean ====
/-
  The precondition read back: every entry of the six float inputs is a real number.

  The precondition is a conjunction, over the six arrays, of "every entry x satisfies |x| < +∞", each
  conjunct stated as a reduction by `and` over all axes of the elementwise comparison of |x| against
  the f32 word 0x7F800000. Over the extended reals that word denotes ⊤, |x| is max x (-x), and the
  comparison is the strict order, so a conjunct that holds says max x (-x) < ⊤ at every entry; the two
  infinities both have max x (-x) = ⊤, so every entry is the image of a real.
-/
import proofs.«108394_j49211735277854_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx
open Cert.Pre_finite_inputs

/-- The rank-0 shape has exactly one index. -/
local instance : Subsingleton S_.Idx := ⟨fun a b => funext fun d => d.elim0⟩

/-- The f32 word 0x7F800000 (exponent all ones, zero significand, sign clear) denotes +∞. -/
theorem ofBits_inf : Ideal.ofBits .f32 0x7F800000#32 = (⊤ : EReal) := by
  simp [Ideal.ofBits, Ideal.ieee]

/-- An extended real whose absolute value max x (-x) is strictly below ⊤ is a real: at ⊥ the
    negation is ⊤, at ⊤ the value itself is, and in both cases the maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ answering 1 says x is a real. -/
theorem real_of_cmp (x : EReal)
    (h : Ideal.cmp .olt (max x (-x)) (Ideal.ofBits .f32 0x7F800000#32) = 1#1) : ∃ r : ℝ, x = (r : EReal) := by
  apply real_of_abs_lt_top
  rw [ofBits_inf] at h
  by_contra hn
  simp [Ideal.cmp, hn] at h

/-- One array, of any shape: if the reduction by `and` over all axes of the entrywise comparison
    |a i| < +∞ is 1, every entry of a is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) :
    ∀ i, ∃ r : ℝ, a i = (r : EReal) := by
  intro i
  have hi := Host.reduce_andi_all _ _ hr hu ix0 e i
  exact real_of_cmp (a i) hi

/-- The precondition holding says every entry of each of the six input arrays is a real. The
    precondition is the `and` of six one-bit results, one per array; the `and` of words is 1 exactly when each
    is, and each one-bit result is the all-axes reduction the per-array lemma reads back. -/
theorem real_of_pre [Cert.Pre_finite_inputs.Facts]
    (a0 : FVec Ideal Cert.Pre_finite_inputs.S4x4096x4096 .f32) (a1 : FVec Ideal Cert.Pre_finite_inputs.S4096x4096 .f32)
    (a2 : FVec Ideal Cert.Pre_finite_inputs.S4096 .f32) (a3 : FVec Ideal Cert.Pre_finite_inputs.S64x4096 .f32)
    (a4 : FVec Ideal Cert.Pre_finite_inputs.S4096x64 .f32) (a5 : FVec Ideal Cert.Pre_finite_inputs.S4096 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [fn, fn_part1, Idealize.ShloMosaic.andi] at h0
  simp only [IntOp.andi_eq_one] at h0
  obtain ⟨⟨⟨⟨⟨e0, e1⟩, e2⟩, e3⟩, e4⟩, e5⟩ := h0
  exact ⟨real_of_all a0 _ _ _ e0, real_of_all a1 _ _ _ e1, real_of_all a2 _ _ _ e2,
    real_of_all a3 _ _ _ e3, real_of_all a4 _ _ _ e4, real_of_all a5 _ _ _ e5⟩

end Cert.FiniteInputs

end
-- ==== Proof.lean ====
/-
  A linear layer on block-quantized activations, with a low-rank correction of its weight, computed two ways.

  Both programs scale the activations `x : [4, 4096, 4096]` by a per-column factor, quantize every block of 128
  consecutive entries of every row on its own (step `min (max ε (largest magnitude) / 6) 448`; an entry becomes
  `clip (round (v / step)) (-6) 6 · step`, ties to even), and send the quantized rows `q` through the weight
  `w : [4096, 4096]` corrected by the product of two thin factors `B : [4096, 64]` and `A : [64, 4096]`, plus a bias.
  One program folds the correction into the weight first and multiplies once, `∑ d, q d · (w o d + ∑ k, B o k · A k d)`;
  the other multiplies by the weight and by the two factors in turn and adds, `∑ d, q d · w o d + ∑ k, (∑ d, q d · A k d) · B o k`.
  A change of float format is the identity on the extended reals, a lane maximum and a host maximum are the same fold
  of `max`, a matrix product into a zero accumulator and a host contraction are the same sum; so the two quantized
  rows are one row (Spec, Rows), and what is left is distributivity and an exchange of two finite sums (Algebra).
  Distributivity fails at the infinities: the law is used where every entry is a real — the six inputs by the
  precondition (FiniteInputs), the quantized entries because a clipped value times a real step is real.

  The idealized kernel's result array is read off its run block by block (KernelPayload: the body's arithmetic at an
  entry; KernelHost: the reshapes and the corrected weight computed around it; KernelValue: the 64 blocks cover the
  output). The reference's is read off its run stage by stage (RefRun, RefValue). The word-level kernel needs only
  that it runs and leaves its arguments alone; its idealization rewrote nothing, so nothing is owed for it.
-/
import proofs.«108394_j49211735277854_2_alg».proof.Defs
import proofs.«108394_j49211735277854_2_alg».proof.Proof.Gen.Kernel
import proofs.«108394_j49211735277854_2_alg».proof.Proof.Gen.Kernel.Skeleton
import proofs.«108394_j49211735277854_2_alg».proof.Proof.Gen.Kernel.Launch
import proofs.«108394_j49211735277854_2_alg».proof.Proof.Gen.Kernel.Points
import proofs.«108394_j49211735277854_2_alg».proof.Proof.Gen.Kernel.Frame
import proofs.«108394_j49211735277854_2_alg».proof.Proof.Gen.KernelIdeal
import proofs.«108394_j49211735277854_2_alg».proof.Proof.Gen.KernelIdeal.Skeleton
import proofs.«108394_j49211735277854_2_alg».proof.Proof.Gen.KernelIdeal.Launch
import proofs.«108394_j49211735277854_2_alg».proof.Proof.Gen.KernelIdeal.Points
import proofs.«108394_j49211735277854_2_alg».proof.Proof.Gen.KernelIdeal.Frame
import proofs.«108394_j49211735277854_2_alg».proof.Proof.Gen.ReferenceIdeal
import proofs.«108394_j49211735277854_2_alg».proof.Proof.Gen.Pre_finite_inputs
import proofs.«108394_j49211735277854_2_alg».proof.Proof.KernelValue
import proofs.«108394_j49211735277854_2_alg».proof.Proof.RefValue
import proofs.«108394_j49211735277854_2_alg».proof.Proof.Algebra
import proofs.«108394_j49211735277854_2_alg».proof.Proof.FiniteInputs
import Idealize.ShloMosaic.Adequacy
import Idealize.ShloMosaic.Init

noncomputable section

namespace Cert.Proof

open Idealize.ShloMosaic Idealize.SL.Sem Idealize.ShloMosaic.ValueIdx

/-- The kernel as printed runs and leaves its arguments alone. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and leaves its arguments alone: its run, with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Stages.run (F := Ideal) m ρ)

/-- The idealization rewrote no operation. -/
theorem preserves : Cert.preserves_Kernel_KernelIdeal := trivial

/-- From memories that agree on the six arguments, all of them real-valued, the two programs end with equal results:
    the kernel's at the folded form, the reference's at the corrected form, and the two forms are one number at every
    entry. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Arrays.whole m c, Cert.KernelIdeal.Arrays.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2.1, (hagree c).2.2.2.2.1, (hagree c).2.2.2.2.2]
  funext i
  obtain ⟨b, r, o, rfl⟩ : ∃ (b : Fin 4) (r : Fin 4096) (o : Fin 4096), i = ix3 b r o := ⟨i 0, i 1, i 2, eq_ix3 i⟩
  rw [Cert.ReferenceIdeal.Stages.result_apply]
  obtain ⟨h0, h1, h2, h3, h4, -⟩ := Cert.FiniteInputs.real_of_pre _ _ _ _ _ _ (hpre c)
  exact (Cert.BlockQuant.folded_eq_corrected _ _ _ _ _ _ h0 h1 h2 h3 h4 b r o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
